-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64x4 : Shape := ⟨3, ![262144, 64, 4]⟩
abbrev S262144x4 : Shape := ⟨2, ![262144, 4]⟩
abbrev S_ : Shape := ⟨0, ![]⟩

class Facts : Prop where
  bcast_S_S262144x64x4 : S_.BroadcastsInDim S262144x64x4 (![] : Fin 0 → Fin S262144x64x4.rank)
  reducesTo_S262144x64x4_S_d0_1_2 : S262144x64x4.ReducesTo [0, 1, 2] S_
  h_S_ : 0 < S_.numel
  bcast_S_S262144x4 : S_.BroadcastsInDim S262144x4 (![] : Fin 0 → Fin S262144x4.rank)
  reducesTo_S262144x4_S_d0_1 : S262144x4.ReducesTo [0, 1] S_

variable [Facts]

def fn {F : FTy → Type} [FloatOps F] (main_arg0 : FVec F S262144x64x4 .f32) (main_arg1 : FVec F S262144x4 .f32) : IVec S_ 1 :=
  let main_v0 : FVec F S262144x64x4 .f32 := Host.absf main_arg0
  let main_cst : FVec F S_ .f32 := constant S_ .f32 0x7F800000#32
  let main_v1 : FVec F S262144x64x4 .f32 := broadcastInDim S262144x64x4 ![] bcast_S_S262144x64x4 main_cst
  let main_v2 : IVec S262144x64x4 1 := cmpf .olt main_v0 main_v1
  let main_c : IVec S_ 1 := constantI S_ 1 1#1
  let main_v3 : IVec S_ 1 := (fun x v => Host.reduce IntOp.andi x v reducesTo_S262144x64x4_S_d0_1_2 h_S_) main_v2 main_c
  let main_v4 : FVec F S262144x4 .f32 := Host.absf main_arg1
  let main_cst_0 : FVec F S_ .f32 := constant S_ .f32 0x7F800000#32
  let main_v5 : FVec F S262144x4 .f32 := broadcastInDim S262144x4 ![] bcast_S_S262144x4 main_cst_0
  let main_v6 : IVec S262144x4 1 := cmpf .olt main_v4 main_v5
  let main_c_1 : IVec S_ 1 := constantI S_ 1 1#1
  let main_v7 : IVec S_ 1 := (fun x v => Host.reduce IntOp.andi x v reducesTo_S262144x4_S_d0_1 h_S_) main_v6 main_c_1
  let main_v8 : IVec S_ 1 := andi main_v3 main_v7
  main_v8
-- ==== Kernel.lean ====
abbrev S262144x64x4 : Shape := ⟨3, ![262144, 64, 4]⟩
abbrev S262144x4 : Shape := ⟨2, ![262144, 4]⟩
abbrev S2x1x128 : Shape := ⟨3, ![2, 1, 128]⟩
abbrev S4096x64x4 : Shape := ⟨3, ![4096, 64, 4]⟩
abbrev S4096x4 : Shape := ⟨2, ![4096, 4]⟩
abbrev S1x1x128 : Shape := ⟨3, ![1, 1, 128]⟩
abbrev S1x128 : Shape := ⟨2, ![1, 128]⟩
abbrev S4096x1x4 : Shape := ⟨3, ![4096, 1, 4]⟩
abbrev S4096x64x1 : Shape := ⟨3, ![4096, 64, 1]⟩
abbrev S4096x64 : Shape := ⟨2, ![4096, 64]⟩
abbrev S4096x1x1 : Shape := ⟨3, ![4096, 1, 1]⟩
abbrev S4096x1 : Shape := ⟨2, ![4096, 1]⟩
abbrev S4096x64x2 : Shape := ⟨3, ![4096, 64, 2]⟩
abbrev S4096x1x2 : Shape := ⟨3, ![4096, 1, 2]⟩
abbrev S4096 : Shape := ⟨1, ![4096]⟩
abbrev S4096x128 : Shape := ⟨2, ![4096, 128]⟩
abbrev S128 : Shape := ⟨1, ![128]⟩
abbrev S1 : Shape := ⟨1, ![1]⟩
abbrev S1x1 : Shape := ⟨2, ![1, 1]⟩
abbrev S_ : Shape := ⟨0, ![]⟩
abbrev S1x50 : Shape := ⟨2, ![1, 50]⟩
abbrev S50 : Shape := ⟨1, ![50]⟩

abbrev nBuf : Space → Nat
  | .hbm => 13
  | .vmem => 8
  | .smem => 0
  | _ => 0

abbrev bufTy : (tb : Table) → Fin (tcTables nBuf tb) → BufTy
  | .hbm, ⟨0, _⟩ => ⟨S262144x64x4, .f32⟩
  | .hbm, ⟨1, _⟩ => ⟨S262144x4, .f32⟩
  | .hbm, ⟨2, _⟩ => ⟨S2x1x128, .f32⟩
  | .hbm, ⟨3, _⟩ => ⟨S2x1x128, .f32⟩
  | .hbm, ⟨4, _⟩ => ⟨S_, .f32⟩
  | .hbm, ⟨5, _⟩ => ⟨S1x128, .f32⟩
  | .hbm, ⟨6, _⟩ => ⟨S1x50, .f32⟩
  | .hbm, ⟨7, _⟩ => ⟨S50, .f32⟩
  | .hbm, ⟨8, _⟩ => ⟨S50, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4096x64x4, .f32⟩
  | .local _ .vmem, ⟨1, _⟩ => ⟨S4096x64x4, .f32⟩
  | .local _ .vmem, ⟨2, _⟩ => ⟨S4096x4, .f32⟩
  | .local _ .vmem, ⟨3, _⟩ => ⟨S4096x4, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S262144x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S4096x64x4_S4096x64x4_0_0_0 : ∀ a, (![0, 0, 0] : Fin 3 → Nat) a + S4096x64x4.size a ≤ S4096x64x4.size a
  h_S4096x64x4 : 0 < S4096x64x4.numel
  inb_S4096x4_S4096x4_0_0 : ∀ a, (![0, 0] : Fin 2 → Nat) a + S4096x4.size a ≤ S4096x4.size a
  h_S4096x4 : 0 < S4096x4.numel
  shapeCasts_S4096x4_S4096x1x4 : S4096x4.ShapeCasts S4096x1x4
  slices_S4096x64x4_o0_0_2_S4096x64x1 : S4096x64x4.Slices ![0, 0, 2] S4096x64x1
  shapeCasts_S4096x64x1_S4096x64 : S4096x64x1.ShapeCasts S4096x64
  slices_S4096x64x4_o0_0_0_S4096x64x1 : S4096x64x4.Slices ![0, 0, 0] S4096x64x1
  slices_S4096x64x4_o0_0_3_S4096x64x1 : S4096x64x4.Slices ![0, 0, 3] S4096x64x1
  slices_S4096x64x4_o0_0_1_S4096x64x1 : S4096x64x4.Slices ![0, 0, 1] S4096x64x1
  slices_S4096x1x4_o0_0_2_S4096x1x1 : S4096x1x4.Slices ![0, 0, 2] S4096x1x1
  shapeCasts_S4096x1x1_S4096x1 : S4096x1x1.ShapeCasts S4096x1
  slices_S4096x1x4_o0_0_0_S4096x1x1 : S4096x1x4.Slices ![0, 0, 0] S4096x1x1
  slices_S4096x1x4_o0_0_3_S4096x1x1 : S4096x1x4.Slices ![0, 0, 3] S4096x1x1
  slices_S4096x1x4_o0_0_1_S4096x1x1 : S4096x1x4.Slices ![0, 0, 1] S4096x1x1
  slices_S4096x64x4_o0_0_0_S4096x64x2 : S4096x64x4.Slices ![0, 0, 0] S4096x64x2
  slices_S4096x1x4_o0_0_0_S4096x1x2 : S4096x1x4.Slices ![0, 0, 0] S4096x1x2
  broadcasts_S4096x1x2_S4096x64x2 : S4096x1x2.Broadcasts S4096x64x2
  slices_S4096x64x4_o0_0_2_S4096x64x2 : S4096x64x4.Slices ![0, 0, 2] S4096x64x2
  slices_S4096x1x4_o0_0_2_S4096x1x2 : S4096x1x4.Slices ![0, 0, 2] S4096x1x2
  slices_S4096x64x2_o0_0_0_S4096x64x1 : S4096x64x2.Slices ![0, 0, 0] S4096x64x1
  slices_S4096x64x2_o0_0_1_S4096x64x1 : S4096x64x2.Slices ![0, 0, 1] S4096x64x1
  broadcasts_S4096x1_S4096x64 : S4096x1.Broadcasts S4096x64
  reduces_S4096x64_S4096 : S4096x64.Reduces [1] S4096
  shapeCasts_S4096_S4096x1 : S4096.ShapeCasts S4096x1
  iota_S4096x128_d1_w32 : S4096x128.Iotas .tc 32 [1]
  broadcasts_S4096x1_S4096x128 : S4096x1.Broadcasts S4096x128
  natLt_1_32 : 1 < 32
  reduces_S4096x128_S128 : S4096x128.Reduces [0] S128
  shapeCasts_S128_S1x128 : S128.ShapeCasts S1x128
  reduces_S4096x1_S1 : S4096x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  reducesTo_S2x1x128_S1x128_d0 : S2x1x128.ReducesTo [0] S1x128
  h_S_ : 0 < S_.numel
  slices_S1x128_S1x50_0_0 : S1x128.Slices ![0, 0] S1x50
  shapeCasts_S1x50_S50 : S1x50.ShapeCasts S50
  reducesTo_S2x1x128_S_d0_1_2 : S2x1x128.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64x4.size a ≤ S262144x64x4.size a
  hwx0_0 : ∀ i : grid0.Coords, EltTy.bits .f32 = 32 ∨ (Rect.block (s := S262144x64x4) S4096x64x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S262144x4.size a
  hwx0_1 : ∀ i : grid0.Coords, EltTy.bits .f32 = 32 ∨ (Rect.block (s := S262144x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S4096x64x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x64x4 : Shape := ⟨3, ![262144, 64, 4]⟩
abbrev S262144x4 : Shape := ⟨2, ![262144, 4]⟩
abbrev S262144x1x4 : Shape := ⟨3, ![262144, 1, 4]⟩
abbrev S262144x64x1 : Shape := ⟨3, ![262144, 64, 1]⟩
abbrev S262144x64 : Shape := ⟨2, ![262144, 64]⟩
abbrev S262144x1x1 : Shape := ⟨3, ![262144, 1, 1]⟩
abbrev S262144x1 : Shape := ⟨2, ![262144, 1]⟩
abbrev S262144x64x2 : Shape := ⟨3, ![262144, 64, 2]⟩
abbrev S262144x1x2 : Shape := ⟨3, ![262144, 1, 2]⟩
abbrev S_ : Shape := ⟨0, ![]⟩
abbrev S262144 : Shape := ⟨1, ![262144]⟩
abbrev S50 : Shape := ⟨1, ![50]⟩

abbrev nBuf : Space → Nat
  | .hbm => 81
  | .vmem => 0
  | .smem => 0
  | _ => 0

abbrev bufTy : (tb : Table) → Fin (tcTables nBuf tb) → BufTy
  | .hbm, ⟨0, _⟩ => ⟨S262144x64x4, .f32⟩
  | .hbm, ⟨1, _⟩ => ⟨S262144x4, .f32⟩
  | .hbm, ⟨2, _⟩ => ⟨S262144x1x4, .f32⟩
  | .hbm, ⟨3, _⟩ => ⟨S262144x64x1, .f32⟩
  | .hbm, ⟨4, _⟩ => ⟨S262144x64, .f32⟩
  | .hbm, ⟨5, _⟩ => ⟨S262144x64x1, .f32⟩
  | .hbm, ⟨6, _⟩ => ⟨S262144x64, .f32⟩
  | .hbm, ⟨7, _⟩ => ⟨S262144x64, .f32⟩
  | .hbm, ⟨8, _⟩ => ⟨S262144x64x1, .f32⟩
  | .hbm, ⟨9, _⟩ => ⟨S262144x64, .f32⟩
  | .hbm, ⟨10, _⟩ => ⟨S262144x64x1, .f32⟩
  | .hbm, ⟨11, _⟩ => ⟨S262144x64, .f32⟩
  | .hbm, ⟨12, _⟩ => ⟨S262144x64, .f32⟩
  | .hbm, ⟨13, _⟩ => ⟨S262144x64, .f32⟩
  | .hbm, ⟨14, _⟩ => ⟨S262144x1x1, .f32⟩
  | .hbm, ⟨15, _⟩ => ⟨S262144x1, .f32⟩
  | .hbm, ⟨16, _⟩ => ⟨S262144x1x1, .f32⟩
  | .hbm, ⟨17, _⟩ => ⟨S262144x1, .f32⟩
  | .hbm, ⟨18, _⟩ => ⟨S262144x1, .f32⟩
  | .hbm, ⟨19, _⟩ => ⟨S262144x1x1, .f32⟩
  | .hbm, ⟨20, _⟩ => ⟨S262144x1, .f32⟩
  | .hbm, ⟨21, _⟩ => ⟨S262144x1x1, .f32⟩
  | .hbm, ⟨22, _⟩ => ⟨S262144x1, .f32⟩
  | .hbm, ⟨23, _⟩ => ⟨S262144x1, .f32⟩
  | .hbm, ⟨24, _⟩ => ⟨S262144x1, .f32⟩
  | .hbm, ⟨25, _⟩ => ⟨S262144x64x2, .f32⟩
  | .hbm, ⟨26, _⟩ => ⟨S262144x1x2, .f32⟩
  | .hbm, ⟨27, _⟩ => ⟨S262144x64x2, .f32⟩
  | .hbm, ⟨28, _⟩ => ⟨S262144x64x2, .f32⟩
  | .hbm, ⟨29, _⟩ => ⟨S262144x64x2, .f32⟩
  | .hbm, ⟨30, _⟩ => ⟨S262144x1x2, .f32⟩
  | .hbm, ⟨31, _⟩ => ⟨S262144x64x2, .f32⟩
  | .hbm, ⟨32, _⟩ => ⟨S262144x64x2, .f32⟩
  | .hbm, ⟨33, _⟩ => ⟨S262144x64x2, .f32⟩
  | .hbm, ⟨34, _⟩ => ⟨S_, .f32⟩
  | .hbm, ⟨35, _⟩ => ⟨S_, .f32⟩
  | .hbm, ⟨36, _⟩ => ⟨S262144x64x2, .f32⟩
  | .hbm, ⟨37, _⟩ => ⟨S262144x64x2, .f32⟩
  | .hbm, ⟨38, _⟩ => ⟨S262144x64x1, .f32⟩
  | .hbm, ⟨39, _⟩ => ⟨S262144x64, .f32⟩
  | .hbm, ⟨40, _⟩ => ⟨S262144x64x1, .f32⟩
  | .hbm, ⟨41, _⟩ => ⟨S262144x64, .f32⟩
  | .hbm, ⟨42, _⟩ => ⟨S262144x64, .f32⟩
  | .hbm, ⟨43, _⟩ => ⟨S262144x64, .f32⟩
  | .hbm, ⟨44, _⟩ => ⟨S262144x64, .f32⟩
  | .hbm, ⟨45, _⟩ => ⟨S262144x64, .f32⟩
  | .hbm, ⟨46, _⟩ => ⟨S_, .f32⟩
  | .hbm, ⟨47, _⟩ => ⟨S262144x64, .f32⟩
  | .hbm, ⟨48, _⟩ => ⟨S262144x64, .f32⟩
  | .hbm, ⟨49, _⟩ => ⟨S262144x64, .f32⟩
  | .hbm, ⟨50, _⟩ => ⟨S_, .f32⟩
  | .hbm, ⟨51, _⟩ => ⟨S262144, .f32⟩
  | .hbm, ⟨52, _⟩ => ⟨S_, .f32⟩
  | .hbm, ⟨53, _⟩ => ⟨S262144, .f32⟩
  | .hbm, ⟨54, _⟩ => ⟨S262144, .f32⟩
  | .hbm, ⟨55, _⟩ => ⟨S262144, .f32⟩
  | .hbm, ⟨56, _⟩ => ⟨S262144, .i32⟩
  | .hbm, ⟨57, _⟩ => ⟨S_, .i32⟩
  | .hbm, ⟨58, _⟩ => ⟨S262144, .i32⟩
  | .hbm, ⟨59, _⟩ => ⟨S262144, .i32⟩
  | .hbm, ⟨60, _⟩ => ⟨S_, .i32⟩
  | .hbm, ⟨61, _⟩ => ⟨S50, .i32⟩
  | .hbm, ⟨62, _⟩ => ⟨S_, .i32⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S_, .i32⟩
  | .hbm, ⟨67, _⟩ => ⟨S262144, .i32⟩
  | .hbm, ⟨68, _⟩ => ⟨S262144, .i1⟩
  | .hbm, ⟨69, _⟩ => ⟨S_, .i32⟩
  | .hbm, ⟨70, _⟩ => ⟨S262144, .i32⟩
  | .hbm, ⟨71, _⟩ => ⟨S262144, .i32⟩
  | .hbm, ⟨72, _⟩ => ⟨S262144, .i32⟩
  | .hbm, ⟨73, _⟩ => ⟨S262144x1, .i32⟩
  | .hbm, ⟨74, _⟩ => ⟨S_, .i32⟩
  | .hbm, ⟨75, _⟩ => ⟨S262144, .i32⟩
  | .hbm, ⟨76, _⟩ => ⟨S50, .i32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S262144x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_0 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_1 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c : Ref sig .tc := ⟨.hbm, 57, rfl⟩
abbrev main_v49 : Ref sig .tc := ⟨.hbm, 58, rfl⟩
abbrev main_v50 : Ref sig .tc := ⟨.hbm, 59, rfl⟩
abbrev main_c_3 : Ref sig .tc := ⟨.hbm, 60, rfl⟩
abbrev main_v51 : Ref sig .tc := ⟨.hbm, 61, rfl⟩
abbrev main_c_4 : Ref sig .tc := ⟨.hbm, 62, rfl⟩
abbrev main_call1_v0 : Ref sig .tc := ⟨.hbm, 63, rfl⟩
abbrev main_call1_v1 : Ref sig .tc := ⟨.hbm, 64, rfl⟩
abbrev main_v52 : Ref sig .tc := ⟨.hbm, 65, rfl⟩
abbrev main_c_5 : Ref sig .tc := ⟨.hbm, 66, rfl⟩
abbrev main_v53 : Ref sig .tc := ⟨.hbm, 67, rfl⟩
abbrev main_v54 : Ref sig .tc := ⟨.hbm, 68, rfl⟩
abbrev main_c_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩

abbrev nD : Nat := 1
abbrev τ : Topo := Topo.v7x

variable {F : FTy → Type} [FloatOps F]

class Facts₀ : Prop where
  bcast_S262144x4_S262144x1x4_0_2 : S262144x4.BroadcastsInDim S262144x1x4 (![0, 2] : Fin 2 → Fin S262144x1x4.rank)
  slices_S262144x64x4_S262144x64x1_0_0_2 : S262144x64x4.Slices ![0, 0, 2] S262144x64x1
  shapeCasts_S262144x64x1_S262144x64 : S262144x64x1.ShapeCasts S262144x64
  slices_S262144x64x4_S262144x64x1_0_0_0 : S262144x64x4.Slices ![0, 0, 0] S262144x64x1
  slices_S262144x64x4_S262144x64x1_0_0_3 : S262144x64x4.Slices ![0, 0, 3] S262144x64x1
  slices_S262144x64x4_S262144x64x1_0_0_1 : S262144x64x4.Slices ![0, 0, 1] S262144x64x1
  slices_S262144x1x4_S262144x1x1_0_0_2 : S262144x1x4.Slices ![0, 0, 2] S262144x1x1
  shapeCasts_S262144x1x1_S262144x1 : S262144x1x1.ShapeCasts S262144x1
  slices_S262144x1x4_S262144x1x1_0_0_0 : S262144x1x4.Slices ![0, 0, 0] S262144x1x1
  slices_S262144x1x4_S262144x1x1_0_0_3 : S262144x1x4.Slices ![0, 0, 3] S262144x1x1
  slices_S262144x1x4_S262144x1x1_0_0_1 : S262144x1x4.Slices ![0, 0, 1] S262144x1x1
  slices_S262144x64x4_S262144x64x2_0_0_0 : S262144x64x4.Slices ![0, 0, 0] S262144x64x2
  slices_S262144x1x4_S262144x1x2_0_0_0 : S262144x1x4.Slices ![0, 0, 0] S262144x1x2
  bcast_S262144x1x2_S262144x64x2_0_1_2 : S262144x1x2.BroadcastsInDim S262144x64x2 (![0, 1, 2] : Fin 3 → Fin S262144x64x2.rank)
  slices_S262144x64x4_S262144x64x2_0_0_2 : S262144x64x4.Slices ![0, 0, 2] S262144x64x2
  slices_S262144x1x4_S262144x1x2_0_0_2 : S262144x1x4.Slices ![0, 0, 2] S262144x1x2
  bcast_S_S262144x64x2 : S_.BroadcastsInDim S262144x64x2 (![] : Fin 0 → Fin S262144x64x2.rank)
  slices_S262144x64x2_S262144x64x1_0_0_0 : S262144x64x2.Slices ![0, 0, 0] S262144x64x1
  slices_S262144x64x2_S262144x64x1_0_0_1 : S262144x64x2.Slices ![0, 0, 1] S262144x64x1
  bcast_S262144x1_S262144x64_0_1 : S262144x1.BroadcastsInDim S262144x64 (![0, 1] : Fin 2 → Fin S262144x64.rank)
  bcast_S_S262144x64 : S_.BroadcastsInDim S262144x64 (![] : Fin 0 → Fin S262144x64.rank)
  reducesTo_S262144x64_S262144_d1 : S262144x64.ReducesTo [1] S262144
  h_S_ : 0 < S_.numel
  bcast_S_S262144 : S_.BroadcastsInDim S262144 (![] : Fin 0 → Fin S262144.rank)
  bcast_S_S50 : S_.BroadcastsInDim S50 (![] : Fin 0 → Fin S50.rank)
  bcast_S262144_S262144x1_0 : S262144.BroadcastsInDim S262144x1 (![0] : Fin 1 → Fin S262144x1.rank)
  reducesTo_S262144_S_d0 : S262144.ReducesTo [0] S_
  scatter_S50_S262144x1_S262144_n_0_0_1_wf : ScatterDims.WF S50 S262144x1 S262144 [] [0] [0] 1

variable [Facts₀]

def scatter_S50_S262144x1_S262144_n_0_0_1 : ScatterDims S50 S262144x1 S262144 where
  updateWindowDims := []
  insertedWindowDims := [0]
  scatterDimsToOperandDims := [0]
  indexVectorDim := 1
  wf := scatter_S50_S262144x1_S262144_n_0_0_1_wf

class Facts : Prop extends Facts₀ where

variable [Facts]
-- ==== Proof.Spec.lean ====
/-
  What both programs compute, as plain functions on the extended reals.

  A box is four numbers (x1, y1, x2, y2).  For a candidate box `p` and a target box `g` the overlap ratio is
  the overlap area (the product of the clipped-at-zero widths of the intersection) divided by
  max (area p + area g - overlap, eps).  Each row has 64 candidates and one target; the row's score is the
  maximum ratio over the candidates (starting from -inf).  The score is binned by
  min (trunc (floor (score / width)), 49).  The two results are the number of rows in each of the 50 bins and the
  mean score (the sum of the scores, from zero, divided by the number of rows).

  No input needs to be finite for any of the facts below: the only laws used are that the clipped widths are
  at least zero, that the divisor is at least eps > 0, and that max and + are monotone.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float literals of the two programs, as the extended reals they denote. -/
abbrev zeroF : EReal := Ideal.ofBits .f32 0x00000000#32
abbrev epsF : EReal := Ideal.ofBits .f32 0x358637BD#32
abbrev negInfF : EReal := Ideal.ofBits .f32 0xFF800000#32
abbrev widthF : EReal := Ideal.ofBits .f32 0x3CA3D70A#32
abbrev rowsF : EReal := Ideal.ofBits .f32 0x48800000#32

/-- The overlap area of two boxes: the product of the intersection's width and height, each clipped at zero. -/
def overlap (p g : Fin 4 → EReal) : EReal :=
  max zeroF (min (p 2) (g 2) - max (p 0) (g 0)) * max zeroF (min (p 3) (g 3) - max (p 1) (g 1))

/-- The overlap ratio: overlap / max (area p + area g - overlap, eps). -/
def ratio (p g : Fin 4 → EReal) : EReal :=
  Ideal.div (overlap p g)
    (max ((p 2 - p 0) * (p 3 - p 1) + (g 2 - g 0) * (g 3 - g 1) - overlap p g) epsF)

/-- The maximum of 64 numbers, from -inf. -/
def rowMax (f : Fin 64 → EReal) : EReal := (Finset.univ : Finset (Fin 64)).fold max negInfF f

/-- The bin of a score: min (trunc (floor (score / width)), 49) as a signed 32-bit word. -/
def binOf (x : EReal) : BitVec 32 :=
  IntOp.minsi (Ideal.fptosi 32 (Ideal.liftRound Int.floor (Ideal.div x widthF))) 49#32

/-- Row `r`'s score, over an array of `R` rows of 64 candidate boxes and an array of `R` target boxes. -/
def score {R : Nat} (PB : (⟨3, ![R, 64, 4]⟩ : Shape).Idx → EReal) (GT : (⟨2, ![R, 4]⟩ : Shape).Idx → EReal)
    (r : Fin R) : EReal :=
  rowMax fun p => ratio (fun k => PB (ix3 r p k)) (fun k => GT (ix2 r k))

/-- One row's contribution to lane `l` of the histogram: 1 if the row's bin is `l`, else 0. -/
def hit (b : BitVec 32) (l : Nat) : EReal :=
  (((((IntOp.cmpi .eq (BitVec.ofNat 32 l) b).setWidth 32).toInt : ℝ)) : EReal)

/-- The histogram: for each of the 50 bins the number of rows whose bin it is, as a 32-bit word. -/
def hist (PB : (⟨3, ![262144, 64, 4]⟩ : Shape).Idx → EReal) (GT : (⟨2, ![262144, 4]⟩ : Shape).Idx → EReal) :
    (⟨1, ![50]⟩ : Shape).Idx → BitVec 32 :=
  fun j => BitVec.ofNat 32
    (Finset.univ.filter fun n : Fin 262144 => binOf (score PB GT n) = BitVec.ofNat 32 (j 0).val).card

/-- The mean score: (0 + the sum of the scores) / the number of rows. -/
def mean (PB : (⟨3, ![262144, 64, 4]⟩ : Shape).Idx → EReal) (GT : (⟨2, ![262144, 4]⟩ : Shape).Idx → EReal) :
    (⟨0, ![]⟩ : Shape).Idx → EReal :=
  fun _ => Ideal.div (zeroF + ∑ n : Fin 262144, score PB GT n) rowsF

end Cert.Spec

end
-- ==== Proof.SpecFacts.lean ====
/-
  Facts about the specification: the overlap ratio and the row scores are at least zero, so every bin lies in 0..49;
  a sum of 0/1 contributions is a count; the conversion of a small count to a 32-bit word is exact; rows re-indexed by blocks.
-/
import proofs.«129085_j72954314490246_2_alg».proof.Proof.Spec

noncomputable section

open Idealize.ShloMosaic Idealize.ShloMosaic.ValueIdx Idealize.ShloMosaic.TcCoe Idealize.SL.Sem

namespace Cert.Spec.AuxA

/-! ### The float literals -/

/-- The pattern 0xFF800000 (sign 1, exponent all ones, significand 0) denotes -∞. -/
theorem negInfF_eq : negInfF = ⊥ := by
  simp [Ideal.ofBits, Ideal.ieee]

/-- The pattern 0x358637BD (exponent 107, significand 407485) denotes 8796093 · 2^(-43). -/
theorem epsF_eq : epsF = (((8796093 : ℝ) * (2 : ℝ) ^ (-43 : ℤ) : ℝ) : EReal) := by
  simp [Ideal.ofBits, Ideal.ieee, -EReal.coe_mul]

/-- The pattern 0x3CA3D70A (exponent 121, significand 2348810) denotes 10737418 · 2^(-29). -/
theorem widthF_eq : widthF = (((10737418 : ℝ) * (2 : ℝ) ^ (-29 : ℤ) : ℝ) : EReal) := by
  simp [Ideal.ofBits, Ideal.ieee, -EReal.coe_mul]

theorem zeroF_eq : zeroF = 0 := Ideal.ofBits_zero_f32

theorem epsF_pos : 0 < epsF := by
  rw [epsF_eq, EReal.coe_pos]; positivity

/-- The real the bin width denotes. -/
def widthR : ℝ := (10737418 : ℝ) * (2 : ℝ) ^ (-29 : ℤ)

theorem widthF_coe : widthF = ((widthR : ℝ) : EReal) := widthF_eq

theorem widthR_pos : 0 < widthR := by unfold widthR; positivity

/-! ### Division of a nonnegative by a positive -/

theorem div_nonneg {x y : EReal} (hx : 0 ≤ x) (hy : 0 < y) : 0 ≤ Ideal.div x y := by
  rw [Ideal.div, if_neg hy.ne']
  exact EReal.mul_nonneg hx (EReal.inv_nonneg_of_nonneg hy.le)

theorem overlap_nonneg (p g : Fin 4 → EReal) : 0 ≤ overlap p g := by
  unfold overlap
  rw [zeroF_eq]
  exact EReal.mul_nonneg (le_max_left _ _) (le_max_left _ _)

/-- The maximum of 64 numbers that are all at least zero is at least zero (there is a first one). -/
theorem rowMax_nonneg (f : Fin 64 → EReal) (hf : ∀ i, 0 ≤ f i) : 0 ≤ rowMax f := by
  unfold rowMax
  rw [Finset.le_fold_max]
  exact Or.inr ⟨0, Finset.mem_univ _, hf 0⟩

/-! ### The bin of a nonnegative score -/

/-- Rounding down keeps a nonnegative extended real nonnegative. -/
theorem liftRound_floor_nonneg {z : EReal} (hz : 0 ≤ z) : 0 ≤ Ideal.liftRound Int.floor z := by
  induction z using EReal.rec with
  | bot => exact absurd hz (by simp)
  | top => simp
  | coe r =>
    rw [Ideal.liftRound_coe, EReal.coe_nonneg]
    have hr : 0 ≤ r := EReal.coe_nonneg.1 hz
    exact_mod_cast Int.floor_nonneg.2 hr

/-- The clamped integer part of a nonnegative extended real lies between 0 and the upper end. -/
theorem toIntClamped_range {lo hi : Int} (hlo : lo ≤ 0) (hhi : 0 ≤ hi) {z : EReal} (hz : 0 ≤ z) :
    0 ≤ Ideal.toIntClamped lo hi z ∧ Ideal.toIntClamped lo hi z ≤ hi := by
  induction z using EReal.rec with
  | bot => exact absurd hz (by simp)
  | top => simp [hhi]
  | coe r =>
    have hr : 0 ≤ r := EReal.coe_nonneg.1 hz
    rw [Ideal.toIntClamped_coe, if_pos hr]
    have hfl : 0 ≤ ⌊r⌋ := Int.floor_nonneg.2 hr
    constructor
    · exact le_max_of_le_right (le_min hhi hfl)
    · exact max_le (hlo.trans hhi) (min_le_left _ _)

/-- The signed 32-bit conversion of a nonnegative extended real is a word between 0 and 2^31 - 1. -/
theorem fptosi_range {z : EReal} (hz : 0 ≤ z) :
    0 ≤ (Ideal.fptosi 32 z).toInt ∧ (Ideal.fptosi 32 z).toInt ≤ 2147483647 := by
  unfold Ideal.fptosi
  have hr := toIntClamped_range (lo := (-(2 ^ (32 - 1) : Nat) : Int)) (hi := ((2 ^ (32 - 1) : Nat) : Int) - 1)
    (by norm_num) (by norm_num) hz
  generalize Ideal.toIntClamped (-(2 ^ (32 - 1) : Nat) : Int) (((2 ^ (32 - 1) : Nat) : Int) - 1) z = n at hr ⊢
  obtain ⟨h0, h1⟩ := hr
  have h1' : n ≤ 2147483647 := h1.trans (by norm_num)
  rw [BitVec.toInt_ofInt_eq_self (by norm_num) (by norm_num; omega) (by norm_num; omega)]
  exact ⟨h0, h1'⟩

/-- Every bin of a nonnegative score lies in 0..49. -/
theorem binOf_range {x : EReal} (hx : 0 ≤ x) : 0 ≤ (binOf x).toInt ∧ (binOf x).toInt ≤ 49 := by
  have hz : 0 ≤ Ideal.liftRound Int.floor (Ideal.div x widthF) :=
    liftRound_floor_nonneg (div_nonneg hx (by rw [widthF_coe, EReal.coe_pos]; exact widthR_pos))
  obtain ⟨h0, _⟩ := fptosi_range hz
  unfold binOf IntOp.minsi
  have h49 : (49#32 : BitVec 32).toInt = 49 := by decide
  split
  · rename_i hlt
    rw [BitVec.slt_iff_toInt_lt, h49] at hlt
    exact ⟨h0, by omega⟩
  · rw [h49]; exact ⟨by norm_num, le_refl _⟩

/-- The word of a number below 50 reads, signed, as that number. -/
theorem toInt_ofNat_small (j : Nat) (hj : j < 50) : (BitVec.ofNat 32 j).toInt = (j : Int) := by
  rw [BitVec.toInt_ofNat', Int.bmod_eq_of_le] <;> omega

end Cert.Spec.AuxA

namespace Cert.Spec
open AuxA

theorem ratio_nonneg (p g : Fin 4 → EReal) : 0 ≤ ratio p g := by
  unfold ratio
  exact div_nonneg (overlap_nonneg p g) (lt_of_lt_of_le epsF_pos (le_max_right _ _))
theorem score_nonneg {R : Nat} (PB : (⟨3, ![R, 64, 4]⟩ : Shape).Idx → EReal) (GT : (⟨2, ![R, 4]⟩ : Shape).Idx → EReal) (r : Fin R) :
    0 ≤ score PB GT r := by
  unfold score
  exact rowMax_nonneg _ fun _ => ratio_nonneg _ _
theorem binOf_maxsi {x : EReal} (hx : 0 ≤ x) : IntOp.maxsi 0#32 (binOf x) = binOf x := by
  obtain ⟨h0, _⟩ := binOf_range hx
  unfold IntOp.maxsi
  rw [if_neg]
  rw [BitVec.slt_iff_toInt_lt, BitVec.toInt_zero]
  omega
theorem binOf_not_slt {x : EReal} (hx : 0 ≤ x) : IntOp.cmpi .slt (binOf x) 0#32 = 0#1 := by
  obtain ⟨h0, _⟩ := binOf_range hx
  have h : (binOf x).slt 0#32 = false := by
    rw [Bool.eq_false_iff, ne_eq, BitVec.slt_iff_toInt_lt, BitVec.toInt_zero]
    omega
  simp only [IntOp.cmpi, h]
  rfl
theorem binOf_toInt_eq_iff {x : EReal} (hx : 0 ≤ x) (j : Nat) (hj : j < 50) :
    (binOf x).toInt = (j : Int) ↔ binOf x = BitVec.ofNat 32 j := by
  rw [← toInt_ofNat_small j hj, BitVec.toInt_inj]
theorem hit_eq (b : BitVec 32) (l : Nat) : hit b l = if BitVec.ofNat 32 l = b then 1 else 0 := by
  unfold hit IntOp.cmpi
  by_cases h : BitVec.ofNat 32 l = b
  · rw [if_pos h]
    have : (BitVec.ofNat 32 l == b) = true := by simp [h]
    simp only [this]
    have h1 : ((BitVec.ofBool true).setWidth 32).toInt = 1 := by decide
    rw [h1]; norm_num
  · rw [if_neg h]
    have : (BitVec.ofNat 32 l == b) = false := by simp [h]
    simp only [this]
    have h0 : ((BitVec.ofBool false).setWidth 32).toInt = 0 := by decide
    rw [h0]; norm_num
theorem sum_hit {ι : Type} [Fintype ι] (B : ι → BitVec 32) (l : Nat) :
    ∑ i, hit (B i) l = (((Finset.univ.filter fun i => B i = BitVec.ofNat 32 l).card : ℕ) : EReal) := by
  classical
  simp only [hit_eq]
  rw [Finset.sum_ite, Finset.sum_const_zero, add_zero, Finset.sum_const, nsmul_one]
  congr 2
  ext i
  simp only [Finset.mem_filter, Finset.mem_univ, true_and]
  exact eq_comm
theorem fptosi_card (n : Nat) (hn : n ≤ 262144) : Ideal.fptosi 32 (zeroF + ((n : ℕ) : EReal)) = BitVec.ofNat 32 n := by
  rw [zeroF_eq, zero_add]
  have hc : ((n : ℕ) : EReal) = (((n : ℝ)) : EReal) := by norm_cast
  rw [hc]
  unfold Ideal.fptosi
  rw [Ideal.toIntClamped_coe, if_pos (Nat.cast_nonneg n), Int.floor_natCast]
  have e : ((2 ^ (32 - 1) : Nat) : Int) = 2147483648 := by norm_num
  have h1 : min ((((2 ^ (32 - 1) : Nat) : Int)) - 1) (n : Int) = (n : Int) := by
    apply min_eq_right; rw [e]; omega
  have h2 : max (-(((2 ^ (32 - 1) : Nat) : Int))) (n : Int) = (n : Int) := by
    apply max_eq_right; rw [e]; omega
  rw [h1, h2]
  rfl
/-- Row `r` of block `t` (4096 rows a block, 64 blocks) is row `4096 t + r` of the whole array. -/
def grow (t : Fin 64) (r : Fin 4096) : Fin 262144 := ⟨t.val * 4096 + r.val, by have := t.isLt; have := r.isLt; omega⟩

/-- Rows are pairs (block, row within the block): the pairing is a bijection, with inverse quotient and remainder by 4096. -/
def AuxA.growEquiv : Fin 64 × Fin 4096 ≃ Fin 262144 where
  toFun p := grow p.1 p.2
  invFun n := (⟨n.val / 4096, by have := n.isLt; omega⟩, ⟨n.val % 4096, by omega⟩)
  left_inv p := by
    obtain ⟨t, r⟩ := p
    have := t.isLt; have := r.isLt
    refine Prod.ext (Fin.ext ?_) (Fin.ext ?_)
    · show (t.val * 4096 + r.val) / 4096 = t.val
      omega
    · show (t.val * 4096 + r.val) % 4096 = r.val
      omega
  right_inv n := by
    refine Fin.ext ?_
    show n.val / 4096 * 4096 + n.val % 4096 = n.val
    omega
theorem sum_grow {M : Type} [AddCommMonoid M] (f : Fin 262144 → M) :
    ∑ t : Fin 64, ∑ r : Fin 4096, f (grow t r) = ∑ n, f n :=
  (Fintype.sum_prod_type' fun t r => f (grow t r)).symm.trans
    (Fintype.sum_equiv AuxA.growEquiv _ _ fun _ => rfl)
/-- Block `32 c + k` (2 halves of 32 blocks). -/
def blk (c : Fin 2) (k : Fin 32) : Fin 64 := ⟨32 * c.val + k.val, by have := c.isLt; have := k.isLt; omega⟩

/-- Blocks are pairs (half, block within the half): a bijection, with inverse quotient and remainder by 32. -/
def AuxA.blkEquiv : Fin 2 × Fin 32 ≃ Fin 64 where
  toFun p := blk p.1 p.2
  invFun n := (⟨n.val / 32, by have := n.isLt; omega⟩, ⟨n.val % 32, by omega⟩)
  left_inv p := by
    obtain ⟨c, k⟩ := p
    have := c.isLt; have := k.isLt
    refine Prod.ext (Fin.ext ?_) (Fin.ext ?_)
    · show (32 * c.val + k.val) / 32 = c.val
      omega
    · show (32 * c.val + k.val) % 32 = k.val
      omega
  right_inv n := by
    refine Fin.ext ?_
    show 32 * (n.val / 32) + n.val % 32 = n.val
    omega
theorem sum_blk {M : Type} [AddCommMonoid M] (f : Fin 64 → M) : ∑ c : Fin 2, ∑ k : Fin 32, f (blk c k) = ∑ t, f t :=
  (Fintype.sum_prod_type' fun c k => f (blk c k)).symm.trans
    (Fintype.sum_equiv AuxA.blkEquiv _ _ fun _ => rfl)
end Cert.Spec

end
-- ==== Proof.ScatterCount.lean ====
/-
  A scatter that adds 1 at each row's index into an array of zeros leaves, in each cell, the number of rows whose index is that cell.
-/
import proofs.«129085_j72954314490246_2_alg».proof.ReferenceIdeal
import proofs.«129085_j72954314490246_2_alg».proof.Proof.Gen.ReferenceIdeal
import Idealize.ShloMosaic.Lib.ValueIdx
import Idealize.ShloMosaic.Lib.IndicatorCount

noncomputable section

open Idealize.ShloMosaic Idealize.ShloMosaic.ValueIdx Idealize.ShloMosaic.TcCoe Idealize.SL.Sem

namespace Cert.RefHist
open Cert.ReferenceIdeal Cert.ReferenceIdeal.Gen
namespace AuxB

/-- The scatter-indices index read by row `j`: row `j`'s coordinate, component 0. -/
theorem siIdx_eq (j : S262144.Idx) (c : Fin scatter_S50_S262144x1_S262144_n_0_0_1.scatterDimsToOperandDims.length) :
    scatter_S50_S262144x1_S262144_n_0_0_1.siIdx j c = ix2 (j 0) (0 : Fin 1) := by
  funext b
  match b with
  | ⟨0, _⟩ => rfl
  | ⟨1, _⟩ => exact Fin.ext (Nat.lt_one_iff.1 c.isLt)

/-- The window of row `j` starts, on the one operand axis, at the row's signed index. -/
theorem start_eq (idx : IVec S262144x1 32) (j : S262144.Idx) (a : Fin 1) :
    scatter_S50_S262144x1_S262144_n_0_0_1.start j idx a = (idx (ix2 (j 0) (0 : Fin 1))).toInt := by
  obtain rfl : a = 0 := Subsingleton.elim _ _
  unfold ScatterDims.start
  rw [dif_pos (by decide), siIdx_eq]
  rfl

/-- The one operand axis is an inserted one: the window coordinate on it is 0. -/
theorem window_eq (j : S262144.Idx) (a : Fin 1) :
    scatter_S50_S262144x1_S262144_n_0_0_1.window j a = 0 := by
  obtain rfl : a = 0 := Subsingleton.elim _ _
  unfold ScatterDims.window
  rw [dif_neg (by decide)]

/-- The update at row `j` lands in cell `i` exactly when the row's signed index is `i`'s coordinate
    (an index outside 0..49 is dropped, and is no cell's coordinate). -/
theorem resultIdx?_eq_some_iff (idx : IVec S262144x1 32) (j : S262144.Idx) (i : S50.Idx) :
    scatter_S50_S262144x1_S262144_n_0_0_1.resultIdx? j idx = some i
      ↔ (idx (ix2 (j 0) (0 : Fin 1))).toInt = ((i 0).val : Int) := by
  unfold ScatterDims.resultIdx?
  have hi : (i 0).val < 50 := (i 0).isLt
  constructor
  · intro h
    split at h
    · rename_i hb
      have h0 := congrFun (Option.some.inj h) 0
      have hv := congrArg Fin.val h0
      have hb0 := hb 0
      rw [start_eq, window_eq] at hb0
      simp only [start_eq, window_eq] at hv
      omega
    · exact absurd h (by simp)
  · intro h
    have hall : ∀ a : Fin S50.rank, 0 ≤ scatter_S50_S262144x1_S262144_n_0_0_1.start j idx a + (scatter_S50_S262144x1_S262144_n_0_0_1.window j a : Int)
        ∧ scatter_S50_S262144x1_S262144_n_0_0_1.start j idx a + (scatter_S50_S262144x1_S262144_n_0_0_1.window j a : Int) < (S50.size a : Int) := by
      intro a
      obtain rfl : a = 0 := Subsingleton.elim _ _
      rw [start_eq, window_eq, h]
      show (0:Int) ≤ ((i 0).val : Int) + ((0:Nat):Int) ∧ ((i 0).val : Int) + ((0:Nat):Int) < ((50:Nat):Int)
      omega
    rw [dif_pos hall]
    congr 1
    funext a
    obtain rfl : a = 0 := Subsingleton.elim _ _
    apply Fin.ext
    simp only [start_eq, window_eq, h]
    omega

/-- A left fold whose step adds 1 to the cell `t n` (and does nothing when `t n` is `none`) adds to each
    cell `i` the number of list entries `n` with `t n = some i`. By induction on the list, for every
    starting array. -/
theorem foldl_count {ι κ : Type} [DecidableEq ι] (t : κ → Option ι)
    (g : (ι → BitVec 32) → κ → (ι → BitVec 32))
    (hg : ∀ r n i, g r n i = if t n = some i then r i + 1#32 else r i)
    (l : List κ) (r : ι → BitVec 32) (i : ι) :
    (l.foldl g r) i = r i + BitVec.ofNat 32 (l.countP fun n => decide (t n = some i)) := by
  induction l generalizing r with
  | nil => simp
  | cons n l ih =>
    rw [List.foldl_cons, ih, List.countP_cons, hg]
    by_cases h : t n = some i
    · simp only [h, if_true, decide_true]
      rw [BitVec.ofNat_add, BitVec.add_assoc, BitVec.add_comm (1#32)]
    · simp only [h, if_false, decide_false]
      rfl

/-- Counting over the list of all `n : Fin N` is the cardinality of the filtered set: the list has no repeats. -/
theorem countP_finRange (N : Nat) (p : Fin N → Prop) [DecidablePred p] :
    (List.finRange N).countP (fun n => decide (p n)) = (Finset.univ.filter p).card := by
  rw [List.countP_eq_length_filter, ← List.toFinset_card_of_nodup ((List.nodup_finRange N).filter _)]
  refine congrArg Finset.card ?_
  ext n
  simp

/-- A rank-1 index is its one coordinate. -/
def rowEquiv : S262144.Idx ≃ Fin 262144 where
  toFun j := j 0
  invFun n := ix1 n
  left_inv j := (eq_ix1 j).symm
  right_inv _ := rfl

end AuxB

theorem scatter_count (idx : IVec S262144x1 32) (j : S50.Idx) :
    Host.scatter scatter_S50_S262144x1_S262144_n_0_0_1 IntOp.addi (fun _ : S50.Idx => (0#32 : BitVec 32)) idx (fun _ : S262144.Idx => (1#32 : BitVec 32)) j
      = BitVec.ofNat 32 (Finset.univ.filter fun n : Fin 262144 => (idx (ix2 n (0 : Fin 1))).toInt = ((j 0).val : Int)).card := by
  unfold Host.scatter
  refine (AuxB.foldl_count
    (t := fun n => scatter_S50_S262144x1_S262144_n_0_0_1.resultIdx? (S262144.rowMajor.symm n) idx) _ ?_ _ _ j).trans ?_
  · intro r n i
    cases h : scatter_S50_S262144x1_S262144_n_0_0_1.resultIdx? (S262144.rowMajor.symm n) idx with
    | none => simp [h]
    | some k =>
      by_cases hk : k = i
      · subst hk; simp [h, IntOp.addi]
      · have hik : ¬ i = k := fun e => hk e.symm
        simp [h, hk, hik]
  · rw [BitVec.zero_add, AuxB.countP_finRange]
    refine congrArg (BitVec.ofNat 32) ?_
    refine Finset.card_equiv (S262144.rowMajor.symm.trans AuxB.rowEquiv) ?_
    intro n
    simp only [Finset.mem_filter, Finset.mem_univ, true_and]
    exact AuxB.resultIdx?_eq_some_iff idx (S262144.rowMajor.symm n) j
end Cert.RefHist

end
-- ==== Proof.RefStages.lean ====
/-
  The reference program's stages, read at an index, are the specification's functions.
-/
import proofs.«129085_j72954314490246_2_alg».proof.Proof.Spec
import proofs.«129085_j72954314490246_2_alg».proof.Proof.SpecFacts
import proofs.«129085_j72954314490246_2_alg».proof.Proof.ScatterCount
import proofs.«129085_j72954314490246_2_alg».proof.Proof.Gen.ReferenceIdeal.Read
import Idealize.ShloMosaic.PureOps.Ideal.Laws
import Idealize.ShloMosaic.Lib.Pipeline.Value
import Idealize.ShloMosaic.Lib.ValueLayout

noncomputable section

open Idealize.ShloMosaic Idealize.ShloMosaic.ValueIdx Idealize.ShloMosaic.TcCoe Idealize.SL.Sem

namespace Cert.RefStages
open Cert.ReferenceIdeal Cert.ReferenceIdeal.Gen Cert.ReferenceIdeal.Read Cert.Spec
variable (PB : (⟨S262144x64x4, .f32⟩ : BufTy).Contents (Elt Ideal)) (GT : (⟨S262144x4, .f32⟩ : BufTy).Contents (Elt Ideal))

namespace AuxC

/-! ### The candidate array's columns, sliced out and reshaped to rows × candidates -/

theorem v2_at (n : Fin 262144) (p : Fin 64) : val_main_v2 (F := Ideal) PB (ix2 n p) = PB (ix3 n p (2 : Fin 4)) := by
  rw [val_main_v2_apply, val_main_v1_apply]
  refine congrArg PB (funext fun a => Fin.ext ?_)
  match a with
  | ⟨0, _⟩ => show (n.val * 64 + p.val) / 64 = n.val; omega
  | ⟨1, _⟩ => show (n.val * 64 + p.val) / 1 % 64 = p.val; omega
  | ⟨2, _⟩ => rfl

theorem v4_at (n : Fin 262144) (p : Fin 64) : val_main_v4 (F := Ideal) PB (ix2 n p) = PB (ix3 n p (0 : Fin 4)) := by
  rw [val_main_v4_apply, val_main_v3_apply]
  refine congrArg PB (funext fun a => Fin.ext ?_)
  match a with
  | ⟨0, _⟩ => show (n.val * 64 + p.val) / 64 = n.val; omega
  | ⟨1, _⟩ => show (n.val * 64 + p.val) / 1 % 64 = p.val; omega
  | ⟨2, _⟩ => rfl

theorem v7_at (n : Fin 262144) (p : Fin 64) : val_main_v7 (F := Ideal) PB (ix2 n p) = PB (ix3 n p (3 : Fin 4)) := by
  rw [val_main_v7_apply, val_main_v6_apply]
  refine congrArg PB (funext fun a => Fin.ext ?_)
  match a with
  | ⟨0, _⟩ => show (n.val * 64 + p.val) / 64 = n.val; omega
  | ⟨1, _⟩ => show (n.val * 64 + p.val) / 1 % 64 = p.val; omega
  | ⟨2, _⟩ => rfl

theorem v9_at (n : Fin 262144) (p : Fin 64) : val_main_v9 (F := Ideal) PB (ix2 n p) = PB (ix3 n p (1 : Fin 4)) := by
  rw [val_main_v9_apply, val_main_v8_apply]
  refine congrArg PB (funext fun a => Fin.ext ?_)
  match a with
  | ⟨0, _⟩ => show (n.val * 64 + p.val) / 64 = n.val; omega
  | ⟨1, _⟩ => show (n.val * 64 + p.val) / 1 % 64 = p.val; omega
  | ⟨2, _⟩ => rfl

/-- The candidate box's area: (x2 - x1) · (y2 - y1). -/
theorem v11_at (n : Fin 262144) (p : Fin 64) :
    val_main_v11 (F := Ideal) PB (ix2 n p)
      = (PB (ix3 n p (2 : Fin 4)) - PB (ix3 n p (0 : Fin 4))) * (PB (ix3 n p (3 : Fin 4)) - PB (ix3 n p (1 : Fin 4))) := by
  rw [val_main_v11_apply, val_main_v5_apply, val_main_v10_apply, v2_at, v4_at, v7_at, v9_at]
  rfl

/-! ### The target array's columns (through the broadcast to rows × 1 × 4) -/

theorem v13_at (n : Fin 262144) : val_main_v13 (F := Ideal) GT (ix2 n (0 : Fin 1)) = GT (ix2 n (2 : Fin 4)) := by
  rw [val_main_v13_apply, val_main_v12_apply, val_main_v0_apply]
  refine congrArg GT (funext fun a => Fin.ext ?_)
  match a with
  | ⟨0, _⟩ => show (n.val * 1 + 0) / 1 = n.val; omega
  | ⟨1, _⟩ => rfl

theorem v15_at (n : Fin 262144) : val_main_v15 (F := Ideal) GT (ix2 n (0 : Fin 1)) = GT (ix2 n (0 : Fin 4)) := by
  rw [val_main_v15_apply, val_main_v14_apply, val_main_v0_apply]
  refine congrArg GT (funext fun a => Fin.ext ?_)
  match a with
  | ⟨0, _⟩ => show (n.val * 1 + 0) / 1 = n.val; omega
  | ⟨1, _⟩ => rfl

theorem v18_at (n : Fin 262144) : val_main_v18 (F := Ideal) GT (ix2 n (0 : Fin 1)) = GT (ix2 n (3 : Fin 4)) := by
  rw [val_main_v18_apply, val_main_v17_apply, val_main_v0_apply]
  refine congrArg GT (funext fun a => Fin.ext ?_)
  match a with
  | ⟨0, _⟩ => show (n.val * 1 + 0) / 1 = n.val; omega
  | ⟨1, _⟩ => rfl

theorem v20_at (n : Fin 262144) : val_main_v20 (F := Ideal) GT (ix2 n (0 : Fin 1)) = GT (ix2 n (1 : Fin 4)) := by
  rw [val_main_v20_apply, val_main_v19_apply, val_main_v0_apply]
  refine congrArg GT (funext fun a => Fin.ext ?_)
  match a with
  | ⟨0, _⟩ => show (n.val * 1 + 0) / 1 = n.val; omega
  | ⟨1, _⟩ => rfl

/-- The target box's area, broadcast along the candidates. -/
theorem v38_at (n : Fin 262144) (p : Fin 64) :
    val_main_v38 (F := Ideal) GT (ix2 n p)
      = (GT (ix2 n (2 : Fin 4)) - GT (ix2 n (0 : Fin 4))) * (GT (ix2 n (3 : Fin 4)) - GT (ix2 n (1 : Fin 4))) := by
  rw [val_main_v38_apply]
  have e : idx_main_v38 (ix2 n p) = ix2 n (0 : Fin 1) := funext fun a => Fin.ext (by
    match a with
    | ⟨0, _⟩ => rfl
    | ⟨1, _⟩ => rfl)
  rw [e, val_main_v22_apply, val_main_v16_apply, val_main_v21_apply, v13_at, v15_at, v18_at, v20_at]
  rfl

end AuxC

namespace AuxC

/-! ### The two-lane slices: lower corners (lanes 0, 1) and upper corners (lanes 2, 3) -/

theorem v23_at (n : Fin 262144) (p : Fin 64) (k : Fin 2) :
    val_main_v23 (F := Ideal) PB (ix3 n p k) = PB (ix3 n p (⟨k.val, by have := k.isLt; omega⟩ : Fin 4)) := by
  rw [val_main_v23_apply]
  refine congrArg PB (funext fun a => Fin.ext ?_)
  match a with
  | ⟨0, _⟩ => rfl
  | ⟨1, _⟩ => rfl
  | ⟨2, _⟩ => rfl

theorem v27_at (n : Fin 262144) (p : Fin 64) (k : Fin 2) :
    val_main_v27 (F := Ideal) PB (ix3 n p k) = PB (ix3 n p (⟨2 + k.val, by have := k.isLt; omega⟩ : Fin 4)) := by
  rw [val_main_v27_apply]
  refine congrArg PB (funext fun a => Fin.ext ?_)
  match a with
  | ⟨0, _⟩ => rfl
  | ⟨1, _⟩ => rfl
  | ⟨2, _⟩ => rfl

theorem v25_at (n : Fin 262144) (p : Fin 64) (k : Fin 2) :
    val_main_v25 (F := Ideal) GT (ix3 n p k) = GT (ix2 n (⟨k.val, by have := k.isLt; omega⟩ : Fin 4)) := by
  rw [val_main_v25_apply, val_main_v24_apply, val_main_v0_apply]
  refine congrArg GT (funext fun a => Fin.ext ?_)
  match a with
  | ⟨0, _⟩ => rfl
  | ⟨1, _⟩ => rfl

theorem v29_at (n : Fin 262144) (p : Fin 64) (k : Fin 2) :
    val_main_v29 (F := Ideal) GT (ix3 n p k) = GT (ix2 n (⟨2 + k.val, by have := k.isLt; omega⟩ : Fin 4)) := by
  rw [val_main_v29_apply, val_main_v28_apply, val_main_v0_apply]
  refine congrArg GT (funext fun a => Fin.ext ?_)
  match a with
  | ⟨0, _⟩ => rfl
  | ⟨1, _⟩ => rfl

/-- The intersection's extent along axis `k`, clipped at zero (the zero on the left of the max). -/
theorem v32_at (n : Fin 262144) (p : Fin 64) (k : Fin 2) :
    val_main_v32 (F := Ideal) PB GT (ix3 n p k)
      = max zeroF
          (min (PB (ix3 n p (⟨2 + k.val, by have := k.isLt; omega⟩ : Fin 4))) (GT (ix2 n (⟨2 + k.val, by have := k.isLt; omega⟩ : Fin 4)))
            - max (PB (ix3 n p (⟨k.val, by have := k.isLt; omega⟩ : Fin 4))) (GT (ix2 n (⟨k.val, by have := k.isLt; omega⟩ : Fin 4)))) := by
  rw [val_main_v32_apply, val_main_call0_v1_apply, val_main_call0_v0_apply, val_main_cst_apply, val_main_v31_apply,
    val_main_v30_apply, val_main_v26_apply, v23_at, v25_at, v27_at, v29_at]
  rfl

theorem v34_at (n : Fin 262144) (p : Fin 64) :
    val_main_v34 (F := Ideal) PB GT (ix2 n p) = val_main_v32 (F := Ideal) PB GT (ix3 n p (0 : Fin 2)) := by
  rw [val_main_v34_apply, val_main_v33_apply]
  refine congrArg (val_main_v32 (F := Ideal) PB GT) (funext fun a => Fin.ext ?_)
  match a with
  | ⟨0, _⟩ => show (n.val * 64 + p.val) / 64 = n.val; omega
  | ⟨1, _⟩ => show (n.val * 64 + p.val) / 1 % 64 = p.val; omega
  | ⟨2, _⟩ => rfl

theorem v36_at (n : Fin 262144) (p : Fin 64) :
    val_main_v36 (F := Ideal) PB GT (ix2 n p) = val_main_v32 (F := Ideal) PB GT (ix3 n p (1 : Fin 2)) := by
  rw [val_main_v36_apply, val_main_v35_apply]
  refine congrArg (val_main_v32 (F := Ideal) PB GT) (funext fun a => Fin.ext ?_)
  match a with
  | ⟨0, _⟩ => show (n.val * 64 + p.val) / 64 = n.val; omega
  | ⟨1, _⟩ => show (n.val * 64 + p.val) / 1 % 64 = p.val; omega
  | ⟨2, _⟩ => rfl

/-- The product of the two clipped extents is the specification's overlap area. -/
theorem v37_at (n : Fin 262144) (p : Fin 64) :
    val_main_v37 (F := Ideal) PB GT (ix2 n p) = overlap (fun k => PB (ix3 n p k)) (fun k => GT (ix2 n k)) := by
  rw [val_main_v37_apply, v34_at, v36_at, v32_at, v32_at]
  rfl

/-- The divisor: max (area p + area g - overlap, eps). -/
theorem v42_at (n : Fin 262144) (p : Fin 64) :
    val_main_v42 (F := Ideal) PB GT (ix2 n p)
      = max ((PB (ix3 n p (2 : Fin 4)) - PB (ix3 n p (0 : Fin 4))) * (PB (ix3 n p (3 : Fin 4)) - PB (ix3 n p (1 : Fin 4)))
            + (GT (ix2 n (2 : Fin 4)) - GT (ix2 n (0 : Fin 4))) * (GT (ix2 n (3 : Fin 4)) - GT (ix2 n (1 : Fin 4)))
            - overlap (fun k => PB (ix3 n p k)) (fun k => GT (ix2 n k))) epsF := by
  rw [val_main_v42_apply, val_main_v40_apply, val_main_v39_apply, v11_at, v38_at, v37_at, val_main_v41_apply,
    val_main_cst_0_apply]
  rfl

/-- The reference's quotient at row `n`, candidate `p` is the specification's overlap ratio. -/
theorem v43_at (n : Fin 262144) (p : Fin 64) :
    val_main_v43 (F := Ideal) PB GT (ix2 n p) = ratio (fun k => PB (ix3 n p k)) (fun k => GT (ix2 n k)) := by
  rw [val_main_v43_apply, v37_at, v42_at]
  rfl

end AuxC

theorem ref_score (n : Fin 262144) : val_main_v44 (F := Ideal) PB GT (ix1 n) = score PB GT n := by
  unfold val_main_v44
  refine (Host.reduce_eq_fold_single FloatOps.maximumf _ _ reducesTo_S262144x64_S262144_d1 (by decide) h_S_ (ix1 n)).trans ?_
  unfold score rowMax
  refine congrArg (fun f => (Finset.univ : Finset (Fin 64)).fold max negInfF f) (funext fun p => ?_)
  show val_main_v43 (F := Ideal) PB GT _ = _
  refine Eq.trans (congrArg (val_main_v43 (F := Ideal) PB GT) (funext fun a => Fin.ext ?_)) (AuxC.v43_at PB GT n p)
  match a with
  | ⟨0, _⟩ => rfl
  | ⟨1, _⟩ => rfl

namespace AuxC

/-! ### From the score to its bin -/

/-- score / width, floored, truncated to a 32-bit integer and capped at 49: the specification's bin. -/
theorem v50_at (n : Fin 262144) : val_main_v50 (F := Ideal) PB GT (ix1 n) = binOf (score PB GT n) := by
  rw [val_main_v50_apply, val_main_v48_apply, val_main_v47_apply, val_main_v46_apply, ref_score, val_main_v45_apply,
    val_main_cst_2_apply, val_main_v49_apply, val_main_c_apply]
  rfl

/-- The lower clamp at zero does nothing: the score is at least zero, so its bin is. -/
theorem v52_at (n : Fin 262144) : val_main_v52 (F := Ideal) PB GT (ix1 n) = binOf (score PB GT n) := by
  rw [val_main_v52_apply, val_main_call1_v1_apply, val_main_call1_v0_apply, val_main_c_4_apply, v50_at]
  exact binOf_maxsi (score_nonneg PB GT n)

/-- So the bin is never negative, and the wrap-around test is false. -/
theorem v54_at (n : Fin 262144) : val_main_v54 (F := Ideal) PB GT (ix1 n) = 0#1 := by
  rw [val_main_v54_apply, v52_at, val_main_v53_apply, val_main_c_5_apply]
  exact binOf_not_slt (score_nonneg PB GT n)

end AuxC

theorem ref_bin (n : Fin 262144) : val_main_v58 (F := Ideal) PB GT (ix2 n (0 : Fin 1)) = binOf (score PB GT n) := by
  rw [val_main_v58_apply]
  have e : idx_main_v58 (ix2 n (0 : Fin 1)) = ix1 n := funext fun a => Fin.ext (by
    match a with
    | ⟨0, _⟩ => rfl)
  rw [e, val_main_v57_apply, AuxC.v54_at, AuxC.v52_at]
  exact select_zero _ _

theorem ref_hist : val_main_v60 (F := Ideal) PB GT = hist PB GT := by
  funext j
  unfold val_main_v60
  -- the scatter's operand is all zeros and its updates are all ones
  have e51 : val_main_v51 (F := Ideal) = fun _ => (0#32 : BitVec 32) :=
    funext fun i => by rw [val_main_v51_apply, val_main_c_3_apply]
  have e59 : val_main_v59 (F := Ideal) = fun _ => (1#32 : BitVec 32) :=
    funext fun i => by rw [val_main_v59_apply, val_main_c_7_apply]
  rw [e51, e59, Cert.RefHist.scatter_count]
  unfold hist
  -- lane j counts the rows whose index word is j; the index word of row n is the bin of its score
  refine congrArg (fun s : Finset (Fin 262144) => BitVec.ofNat 32 s.card) (Finset.filter_congr fun n _ => ?_)
  rw [ref_bin]
  exact binOf_toInt_eq_iff (score_nonneg PB GT n) (j 0).val (j 0).isLt

namespace AuxC

/-- A rank-1 index is its one coordinate … -/
def idxEquiv1 {m : Nat} : (⟨1, ![m]⟩ : Shape).Idx ≃ Fin m where
  toFun i := i 0
  invFun a := ix1 a
  left_inv i := (eq_ix1 i).symm
  right_inv _ := rfl

/-- … so a sum over a rank-1 index set is the sum over the coordinate. -/
theorem sum_idx1 {M : Type*} [AddCommMonoid M] {m : Nat} (f : (⟨1, ![m]⟩ : Shape).Idx → M) :
    ∑ i, f i = ∑ a : Fin m, f (ix1 a) := by
  rw [← Equiv.sum_comp (idxEquiv1 (m := m)).symm f]
  rfl

end AuxC

theorem ref_mean : val_main_v62 (F := Ideal) PB GT = mean PB GT := by
  funext i
  rw [val_main_v62_apply, val_main_v61_apply, val_main_cst_8_apply, val_main_cst_9_apply]
  -- the sum over the rank-1 indices is the sum over the rows, and each term is the row's score
  have es : ∑ j : S262144.Idx, val_main_v44 (F := Ideal) PB GT j = ∑ n : Fin 262144, score PB GT n :=
    (AuxC.sum_idx1 (val_main_v44 (F := Ideal) PB GT)).trans (Finset.sum_congr rfl fun n _ => ref_score PB GT n)
  rw [es]
  unfold mean
  rfl

end Cert.RefStages

end
-- ==== Proof.Totals.lean ====
/-
  The two result arrays' entries, summed as the host does, are the specification's results: the two halves' 32 blocks of
  4096 rows are all 262144 rows, a sum of 0/1 contributions is a count, and the count converts exactly to a 32-bit word.
-/
import proofs.«129085_j72954314490246_2_alg».proof.Proof.Spec
import proofs.«129085_j72954314490246_2_alg».proof.Proof.SpecFacts

noncomputable section

open Idealize.ShloMosaic Idealize.ShloMosaic.ValueIdx Idealize.ShloMosaic.TcCoe Idealize.SL.Sem

namespace Cert.Spec.AuxT

/-- An index of the 2×1×128 array is its first and last coordinates: the middle axis has one position. -/
def idxEquiv : (⟨3, ![2, 1, 128]⟩ : Shape).Idx ≃ Fin 2 × Fin 128 where
  toFun i := (i 0, i 2)
  invFun p := ix3 p.1 (0 : Fin 1) p.2
  left_inv i := by
    funext a
    match a with
    | ⟨0, _⟩ => rfl
    | ⟨1, h1⟩ =>
      have h : (i ⟨1, h1⟩).val < 1 := (i ⟨1, h1⟩).isLt
      exact Fin.ext (by show 0 = (i ⟨1, h1⟩).val; omega)
    | ⟨2, _⟩ => rfl
  right_inv _ := rfl

/-- A sum over the 2×1×128 indices is the double sum over the first and last coordinates. -/
theorem sum_idx {M : Type} [AddCommMonoid M] (f : (⟨3, ![2, 1, 128]⟩ : Shape).Idx → M) :
    ∑ i, f i = ∑ c : Fin 2, ∑ l : Fin 128, f (ix3 c (0 : Fin 1) l) := by
  rw [← Equiv.sum_comp idxEquiv.symm f, Fintype.sum_prod_type]
  rfl

/-- Of 128 lanes of which only lane 0 holds a value, the sum is that value. -/
theorem sum_lane0 {M : Type} [AddCommMonoid M] (S : M) :
    ∑ l : Fin 128, (if l.val = 0 then S else 0) = S := by
  rw [Finset.sum_eq_single (0 : Fin 128)]
  · rfl
  · intro l _ hl
    rw [if_neg]
    intro h
    exact hl (Fin.ext h)
  · intro h
    exact absurd (Finset.mem_univ _) h

/-- The two halves' 32 blocks of 4096 rows are all the rows. -/
theorem sum_halves {M : Type} [AddCommMonoid M] (tf : ℕ → M) (s : Fin 262144 → M)
    (ht : ∀ t : Fin 64, tf t.val = ∑ r : Fin 4096, s (grow t r)) :
    ∑ c : Fin 2, ∑ j ∈ Finset.range 32, tf (32 * c.val + j) = ∑ n, s n :=
  calc ∑ c : Fin 2, ∑ j ∈ Finset.range 32, tf (32 * c.val + j)
      = ∑ c : Fin 2, ∑ k : Fin 32, ∑ r : Fin 4096, s (grow (blk c k) r) := by
        refine Finset.sum_congr rfl fun c _ => ?_
        rw [Finset.sum_range]
        exact Finset.sum_congr rfl fun k _ => ht (blk c k)
    _ = ∑ t : Fin 64, ∑ r : Fin 4096, s (grow t r) := sum_blk fun t => ∑ r : Fin 4096, s (grow t r)
    _ = ∑ n, s n := sum_grow s

end Cert.Spec.AuxT

namespace Cert.Spec
open AuxT

/-- The histogram: lane l of the two halves' rows, each zero plus its 32 blocks' counts, added from zero and converted. -/
theorem hist_total (cntf : ℕ → ℕ → EReal) (B : Fin 262144 → BitVec 32) (l : ℕ)
    (hc : ∀ t : Fin 64, cntf t.val l = ∑ r : Fin 4096, hit (B (grow t r)) l) :
    Ideal.fptosi 32 (zeroF + ∑ c : Fin 2, (zeroF + ∑ j ∈ Finset.range 32, cntf (32 * c.val + j) l))
      = BitVec.ofNat 32 (Finset.univ.filter fun n : Fin 262144 => B n = BitVec.ofNat 32 l).card := by
  have key : ∑ c : Fin 2, (zeroF + ∑ j ∈ Finset.range 32, cntf (32 * c.val + j) l)
      = (((Finset.univ.filter fun n : Fin 262144 => B n = BitVec.ofNat 32 l).card : ℕ) : EReal) := by
    simp only [AuxA.zeroF_eq, zero_add]
    rw [sum_halves (fun t => cntf t l) (fun n => hit (B n) l) hc]
    exact sum_hit B l
  rw [key]
  refine fptosi_card _ ((Finset.card_le_univ _).trans ?_)
  rw [Fintype.card_fin]

/-- The sum array's 2×1×128 entries (lane 0 of each half: zero plus its 32 blocks' totals; zeros elsewhere) add up to
    the sum over all rows. -/
theorem mean_total (totf : ℕ → EReal) (s : Fin 262144 → EReal)
    (ht : ∀ t : Fin 64, totf t.val = ∑ r : Fin 4096, s (grow t r)) :
    ∑ i : (⟨3, ![2, 1, 128]⟩ : Shape).Idx,
        (zeroF + ∑ j ∈ Finset.range 32, (if (i 2).val = 0 then totf (32 * (i 0).val + j) else zeroF))
      = ∑ n : Fin 262144, s n := by
  rw [sum_idx, ← sum_halves totf s ht]
  refine Finset.sum_congr rfl fun c _ => ?_
  rw [← sum_lane0 (∑ j ∈ Finset.range 32, totf (32 * c.val + j))]
  refine Finset.sum_congr rfl fun l _ => ?_
  show zeroF + ∑ j ∈ Finset.range 32, (if l.val = 0 then totf (32 * c.val + j) else zeroF) = _
  rw [AuxA.zeroF_eq, zero_add]
  by_cases h : l.val = 0
  · simp only [h, if_true]
  · simp only [h, if_false, Finset.sum_const_zero]

end Cert.Spec

end
-- ==== Proof.CaseValues.lean ====
/-
  What one run of the kernel body leaves in its two running buffers (the 1×1×128 histogram block and the 1×1×128 sum block).

  At the first block of a half (the reset case) the body stores zeros, reads them back, and stores zeros + the block's
  contribution; at every other block it reads what the previous block left and stores that + the block's contribution.
  In both cases the buffer ends at the body's last store, whose value is the pure term below of the two input blocks
  and of what the buffer held when it was read.
-/
import proofs.«129085_j72954314490246_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KCase

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The reset case: the buffer ends at zeros + the block's contribution. -/
theorem out_A_2 (c : Dev nD) (i : grid0.Coords) (a2 : Memref sig .tc .vmem S4096x64x4 .f32) (h2 : a2.IsWhole)
    (a3 : Memref sig .tc .vmem S4096x4 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S4096x64x4 .f32) (x1 : Vec F S4096x4 .f32) :
    out0_A_2 c i a2 h2 a3 h3 a4 h4 a5 h5 hc x0 x1 = k0_pay8 (k0_pay4 x0 x1) (k0_pay5 x0 x1) k0_pay6 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread,
    View.ld_unit_zero (S := S1x1x128) hz3, View.ld_unit_zero (S := S4096x64x4) hz3, View.ld_unit_zero (S := S4096x4) hz2]

/-- The reset case: the buffer ends at zeros + the block's contribution. -/
theorem out_A_3 (c : Dev nD) (i : grid0.Coords) (a2 : Memref sig .tc .vmem S4096x64x4 .f32) (h2 : a2.IsWhole)
    (a3 : Memref sig .tc .vmem S4096x4 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S4096x64x4 .f32) (x1 : Vec F S4096x4 .f32) :
    out0_A_3 c i a2 h2 a3 h3 a4 h4 a5 h5 hc x0 x1 = k0_pay9 (k0_pay4 x0 x1) (k0_pay5 x0 x1) k0_pay6 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread,
    View.ld_unit_zero (S := S1x1x128) hz3, View.ld_unit_zero (S := S4096x64x4) hz3, View.ld_unit_zero (S := S4096x4) hz2]

/-- Every other block: the buffer ends at what it held + the block's contribution. -/
theorem out_B_2 (c : Dev nD) (i : grid0.Coords) (a2 : Memref sig .tc .vmem S4096x64x4 .f32) (h2 : a2.IsWhole)
    (a3 : Memref sig .tc .vmem S4096x4 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S4096x64x4 .f32) (x1 : Vec F S4096x4 .f32) (xo2 xo3 : Vec F S1x1x128 .f32) :
    out0_B_2 c i a2 h2 a3 h3 a4 h4 a5 h5 hc x0 x1 xo2 xo3 = k0_pay8 (k0_pay4 x0 x1) (k0_pay5 x0 x1) k0_pay6 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x1x128) hz3, View.ld_unit_zero (S := S4096x64x4) hz3, View.ld_unit_zero (S := S4096x4) hz2]

/-- Every other block: the buffer ends at what it held + the block's contribution. -/
theorem out_B_3 (c : Dev nD) (i : grid0.Coords) (a2 : Memref sig .tc .vmem S4096x64x4 .f32) (h2 : a2.IsWhole)
    (a3 : Memref sig .tc .vmem S4096x4 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S4096x64x4 .f32) (x1 : Vec F S4096x4 .f32) (xo2 xo3 : Vec F S1x1x128 .f32) :
    out0_B_3 c i a2 h2 a3 h3 a4 h4 a5 h5 hc x0 x1 xo2 xo3 = k0_pay9 (k0_pay4 x0 x1) (k0_pay5 x0 x1) k0_pay6 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x1x128) hz3, View.ld_unit_zero (S := S4096x64x4) hz3, View.ld_unit_zero (S := S4096x4) hz2]

end Cert.KCase

end
-- ==== Proof.BlockValues.lean ====
/-
  What the kernel body computes from one block of 4096 rows, read at an index: the rows' scores, the block's 0/1 counts
  per lane added to the running histogram, and the block's score total added to lane 0 of the running sum.
-/
import proofs.«129085_j72954314490246_2_alg».proof.Proof.Spec
import proofs.«129085_j72954314490246_2_alg».proof.Proof.Gen.KernelIdeal.Skeleton
import Idealize.ShloMosaic.PureOps.Ideal.Laws
import Idealize.ShloMosaic.Lib.Pipeline.Value
import Idealize.ShloMosaic.Lib.ValueLayout

noncomputable section

open Idealize.ShloMosaic Idealize.ShloMosaic.ValueIdx Idealize.ShloMosaic.TcCoe Idealize.SL.Sem

namespace Cert.KPay.AuxD

/-! ## Layout operations read at explicit coordinates

Each lemma reads one slice, shape cast or broadcast at an index written by its coordinates: a cast reads the operand at the
index with the same row-major position, a slice at the shifted coordinate, a broadcast at zero on the unit axis. -/

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The same with the source coordinate written out, `o + j`. -/
theorem slice3_axis2_eq {n0 n1 n2 m : Nat} (o : Nat) (X : (⟨3, ![n0, n1, n2]⟩ : Shape).Idx → α)
    (h : (⟨3, ![n0, n1, n2]⟩ : Shape).Slices ![0, 0, o] ⟨3, ![n0, n1, m]⟩) (a : Fin n0) (b : Fin n1) (j : Fin m) :
    extractStridedSlice ⟨3, ![n0, n1, m]⟩ ![0, 0, o] X h (ix3 a b j)
      = X (ix3 a b ⟨o + j.val, Nat.lt_of_lt_of_le (Nat.add_lt_add_left j.isLt o) (h.2 2)⟩) :=
  slice3_axis2_apply o X h a b j _ rfl

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, c]` array broadcast to `[a, b, c]` reads, at `(i, p, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (p : Fin b) (k : Fin c) :
    broadcastTo ⟨3, ![a, b, c]⟩ v h (ix3 i p k) = v (ix3 i (0 : Fin 1) k) := by
  refine broadcastTo_apply v h (ix3 i p k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A column `[a, 1]` broadcast to `[a, b]` reads, at `(i, p)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (p : Fin b) :
    broadcastTo ⟨2, ![a, b]⟩ v h (ix2 i p) = v (ix2 i (0 : Fin 1)) := by
  refine broadcastTo_apply v h (ix2 i p) (ix2 i (0 : Fin 1)) fun ax => ?_
  match ax with
  | ⟨0, _⟩ =>
    show i.val = if a = 1 then 0 else i.val
    split
    · have := i.isLt; omega
    · rfl
  | ⟨1, _⟩ => rfl

end Layout

/-! ## The block's arithmetic read at a row and a candidate -/

section Block
open Cert.KernelIdeal Cert.KernelIdeal.Gen Cert.Spec
variable (x0 : Vec Ideal S4096x64x4 .f32) (x1 : Vec Ideal S4096x4 .f32)

/-- The target boxes with a unit axis inserted read the row's target box. -/
theorem pay3_apply (r : Fin 4096) (u : Fin 1) (k : Fin 4) :
    k0_pay3 (F := Ideal) x1 (ix3 r u k) = x1 (ix2 r k) := by
  unfold k0_pay3
  exact shapeCast_ac_a1c_apply _ _ r u k

/-- At row `r` and candidate `p` the kernel's overlap value is the overlap area of the candidate box and the row's target
    box: the slices, casts and broadcasts read the two boxes' coordinates (corner `k` and corner `2 + k` on axis `k`), and
    the arithmetic on them is pointwise, in the specification's order. -/
theorem pay4_apply (r : Fin 4096) (p : Fin 64) :
    k0_pay4 (F := Ideal) x0 x1 (ix2 r p) = overlap (fun k => x0 (ix3 r p k)) (fun k => x1 (ix2 r k)) := by
  unfold k0_pay4 overlap
  simp only [mulf_apply, subf_apply, maximumf_apply, minimumf_apply, broadcast_apply, shapeCast_ab1_ab_apply,
    slice3_axis2_eq, broadcastTo_a1c_abc_apply, pay3_apply]
  rfl

/-- At row `r` and candidate `p` the kernel's union value before its clamp: the candidate's area plus the target's area
    minus the overlap. -/
theorem pay5_apply (r : Fin 4096) (p : Fin 64) :
    k0_pay5 (F := Ideal) x0 x1 (ix2 r p)
      = (x0 (ix3 r p 2) - x0 (ix3 r p 0)) * (x0 (ix3 r p 3) - x0 (ix3 r p 1))
        + (x1 (ix2 r 2) - x1 (ix2 r 0)) * (x1 (ix2 r 3) - x1 (ix2 r 1))
        - overlap (fun k => x0 (ix3 r p k)) (fun k => x1 (ix2 r k)) := by
  unfold k0_pay5
  simp only [mulf_apply, subf_apply, addf_apply, shapeCast_ab1_ab_apply, slice3_axis2_eq, broadcastTo_a1_ab_apply,
    pay3_apply, pay4_apply]
  rfl

/-- The maximum over a row's 64 candidates, from -inf, of a 4096 x 64 array: the fold of `max` over the row's entries. -/
theorem rowMax_read (src : FVec Ideal S4096x64 .f32) (h : S4096x64.Reduces [1] S4096) (hφ : FKind.Formats .f32)
    (hacc : (0xFF800000#32 : BitVec 32) = FKind.maximumf.neutral .f32 hφ) (r : Fin 4096) :
    multiReduction .maximumf [1] S4096 src 0xFF800000#32 h hφ hacc (ix1 r) = rowMax fun p => src (ix2 r p) := by
  refine (Ideal.multiReduction_maximumf_single src _ h hφ hacc (ix1 r)).trans ?_
  have hl : (src ∘ h.lift (ix1 r)) = fun p : Fin 64 => src (ix2 r p) := by
    funext p
    refine congrArg src (funext fun c => ?_)
    match c with
    | ⟨0, _⟩ => rfl
    | ⟨1, _⟩ => rfl
  rw [hl]
  rfl

end Block

/-! ## The two block sums, the lane number and the lane-zero select -/

section Sums
open Cert.KernelIdeal Cert.KernelIdeal.Gen Cert.Spec

/-- The sum over the 4096 rows, from zero, of a 4096 x 128 array, at lane `l`. -/
theorem laneSum_read (src : FVec Ideal S4096x128 .f32) (h : S4096x128.Reduces [0] S128) (hφ : FKind.Formats .f32)
    (hacc : (0x00000000#32 : BitVec 32) = FKind.add.neutral .f32 hφ) (l : Fin 128) :
    multiReduction .add [0] S128 src 0x00000000#32 h hφ hacc (ix1 l) = ∑ r : Fin 4096, src (ix2 r l) := by
  refine (Ideal.multiReduction_add_single src _ h hφ hacc (ix1 l)).trans ?_
  refine Finset.sum_congr rfl fun r _ => congrArg src (funext fun c => ?_)
  match c with
  | ⟨0, _⟩ => rfl
  | ⟨1, _⟩ => rfl

/-- The sum over the 4096 rows, from zero, of a 4096 x 1 column. -/
theorem colSum_read (src : FVec Ideal S4096x1 .f32) (h : S4096x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 4096, src (ix2 r (0 : Fin 1)) := by
  refine (Ideal.multiReduction_add_single src _ h hφ hacc (ix1 u)).trans ?_
  refine Finset.sum_congr rfl fun r _ => congrArg src (funext fun c => ?_)
  have hu : u = 0 := Subsingleton.elim _ _
  subst hu
  match c with
  | ⟨0, _⟩ => rfl
  | ⟨1, _⟩ => rfl

/-- The lane number along the second axis of a matrix: the column's coordinate as a 32-bit word. -/
theorem iota_ab_axis1_apply {a b : ℕ} (κ : Kind) (h : (⟨2, ![a, b]⟩ : Shape).Iotas κ 32 [1]) (i : Fin a) (j : Fin b) :
    iota κ ⟨2, ![a, b]⟩ 32 [1] h (ix2 i j) = BitVec.ofNat 32 j.val :=
  iota_single_apply κ _ 32 1 h (ix2 i j)

/-- A select on "the lane's word is the zero word" is the `if` on the lane being lane zero: a lane number below 128 is
    below 2^32, so it is its word's value. -/
theorem select_lane0 {α : Type} (l : Fin 128) (A B : α) :
    Scalar.select (IntOp.cmpi .eq (BitVec.ofNat 32 l.val) 0#32) A B = if l.val = 0 then A else B := by
  by_cases hl : l.val = 0
  · rw [if_pos hl, hl]; rfl
  · rw [if_neg hl]
    have hne : (BitVec.ofNat 32 l.val == 0#32) = false := by
      rw [beq_eq_false_iff_ne]
      intro h
      have h' := congrArg BitVec.toNat h
      rw [BitVec.toNat_ofNat] at h'
      have hlt := l.isLt
      rw [Nat.mod_eq_of_lt (by omega)] at h'
      exact hl h'
    show Scalar.select (BitVec.ofBool (BitVec.ofNat 32 l.val == 0#32)) A B = B
    rw [hne]
    exact select_zero A B

end Sums

end Cert.KPay.AuxD

namespace Cert.KPay
open Cert.KernelIdeal Cert.KernelIdeal.Gen Cert.Spec
variable (x0 : Vec Ideal S4096x64x4 .f32) (x1 : Vec Ideal S4096x4 .f32)
theorem pay7_apply (r : Fin 4096) :
    k0_pay7 (F := Ideal) (k0_pay4 x0 x1) (k0_pay5 x0 x1) k0_pay6 (ix2 r (0 : Fin 1)) = score x0 x1 r := by
  -- the column cast reads the row's maximum; the maximum is over the row's ratios overlap / max union eps
  unfold k0_pay7
  refine (AuxD.shapeCast_a_a1_apply _ _ r 0).trans ?_
  refine (AuxD.rowMax_read _ _ _ _ r).trans ?_
  unfold score
  refine congrArg rowMax (funext fun p => ?_)
  show Ideal.div (k0_pay4 x0 x1 (ix2 r p)) (max (k0_pay5 x0 x1 (ix2 r p)) (k0_pay6 (F := Ideal) (ix2 r p))) = _
  rw [AuxD.pay4_apply, AuxD.pay5_apply]
  rfl
theorem pay8_apply (acc : Vec Ideal S1x1x128 .f32) (l : Fin 128) :
    k0_pay8 (F := Ideal) (k0_pay4 x0 x1) (k0_pay5 x0 x1) k0_pay6 acc (ix3 (0 : Fin 1) (0 : Fin 1) l)
      = acc (ix3 (0 : Fin 1) (0 : Fin 1) l) + ∑ r : Fin 4096, hit (binOf (score x0 x1 r)) l.val := by
  -- through the unit-axis casts: the running block at lane l plus the sum over the rows of the converted 0/1 words
  unfold k0_pay8
  refine (shapeCast_ab_1ab_apply _ _ 0 0 l).trans ?_
  refine (addf_apply _ _ _).trans ?_
  rw [shapeCast_1ab_ab_apply, shapeCast_a_1a_apply]
  refine congrArg (acc (ix3 (0 : Fin 1) (0 : Fin 1) l) + ·) ?_
  refine (AuxD.laneSum_read _ _ _ _ l).trans ?_
  refine Finset.sum_congr rfl fun r _ => ?_
  -- one row's term: the word [lane l = the row's bin] widened to 32 bits and read as a signed integer
  refine (sitofp_apply _ _).trans ?_
  rw [extui_apply]
  show ((((IntOp.cmpi .eq (iota .tc S4096x128 32 [1] iota_S4096x128_d1_w32 (ix2 r l))
      (broadcastTo S4096x128 _ broadcasts_S4096x1_S4096x128 (ix2 r l))).setWidth 32).toInt : ℝ) : EReal) = _
  rw [AuxD.iota_ab_axis1_apply, AuxD.broadcastTo_a1_ab_apply]
  -- the row's bin: min (trunc (floor (score / width)), 49)
  show ((((IntOp.cmpi .eq (BitVec.ofNat 32 l.val)
      (IntOp.minsi (Ideal.fptosi 32 (Ideal.liftRound Int.floor (Ideal.div
        (k0_pay7 (F := Ideal) (k0_pay4 x0 x1) (k0_pay5 x0 x1) k0_pay6 (ix2 r (0 : Fin 1))) widthF))) 49#32)).setWidth 32).toInt : ℝ) : EReal) = _
  rw [pay7_apply]
  rfl
theorem pay9_apply (acc : Vec Ideal S1x1x128 .f32) (l : Fin 128) :
    k0_pay9 (F := Ideal) (k0_pay4 x0 x1) (k0_pay5 x0 x1) k0_pay6 acc (ix3 (0 : Fin 1) (0 : Fin 1) l)
      = acc (ix3 (0 : Fin 1) (0 : Fin 1) l) + (if l.val = 0 then ∑ r : Fin 4096, score x0 x1 r else zeroF) := by
  -- through the unit-axis casts: the running block at lane l plus the select between the rows' total and zero
  unfold k0_pay9
  refine (shapeCast_ab_1ab_apply _ _ 0 0 l).trans ?_
  refine (addf_apply _ _ _).trans ?_
  rw [shapeCast_1ab_ab_apply]
  refine congrArg (acc (ix3 (0 : Fin 1) (0 : Fin 1) l) + ·) ?_
  refine (select_apply _ _ _ _).trans ?_
  show Scalar.select (IntOp.cmpi .eq (iota .tc S1x128 32 [1] iota_S1x128_d1_w32 (ix2 (0 : Fin 1) l)) 0#32)
      (broadcastTo S1x128 _ broadcasts_S1x1_S1x128 (ix2 (0 : Fin 1) l)) (Scalar.ofBits (F := Ideal) .f32 0x00000000#32) = _
  rw [AuxD.iota_ab_axis1_apply, AuxD.broadcastTo_a1_ab_apply, shapeCast_self, AuxD.shapeCast_a_a1_apply]
  -- the condition is "lane l is lane zero"; the total is the sum of the rows' scores
  refine (AuxD.select_lane0 l _ _).trans ?_
  refine if_congr Iff.rfl ?_ rfl
  refine (AuxD.colSum_read _ _ _ _ 0).trans ?_
  exact Finset.sum_congr rfl fun r _ => pay7_apply x0 x1 r
theorem pay1_apply (i : S1x1x128.Idx) : k0_pay1 (F := Ideal) i = zeroF := by
  -- a cast of a splat reads the splat's value at every index
  unfold k0_pay1 shapeCast broadcast
  rfl
theorem pay2_apply (i : S1x1x128.Idx) : k0_pay2 (F := Ideal) i = zeroF := by
  unfold k0_pay2 shapeCast broadcast
  rfl
end Cert.KPay

end
-- ==== Proof.Accumulate.lean ====
/-
  The two running buffers over the grid, and the two arrays the kernel leaves.

  The grid is 2 halves × 32 blocks; block t holds rows 4096 t … 4096 t + 4095 of the two argument arrays.  Within a half
  the histogram buffer is reset at the half's first block and then accumulates, so after block n it holds zero plus the
  lane counts of the blocks of n's half up to n; the sum buffer likewise holds zero plus the blocks' score totals in lane 0.
  Each half's buffers are written back once, after the half's last block, to row `half` of the 2×1×128 result arrays.
-/
import proofs.«129085_j72954314490246_2_alg».proof.Proof.Spec
import proofs.«129085_j72954314490246_2_alg».proof.Proof.SpecFacts
import proofs.«129085_j72954314490246_2_alg».proof.Proof.CaseValues
import proofs.«129085_j72954314490246_2_alg».proof.Proof.BlockValues
import proofs.«129085_j72954314490246_2_alg».proof.Proof.Gen.KernelIdeal.Frame
import Idealize.ShloMosaic.Lib.Pipeline.Value
import Idealize.ShloMosaic.Lib.Tactic

noncomputable section

open Idealize.ShloMosaic Idealize.ShloMosaic.ValueIdx Idealize.ShloMosaic.TcCoe Idealize.SL.Sem
open Idealize.ShloMosaic.Pipeline (Dat)

namespace Cert.KAccum

open Cert.KernelIdeal Cert.KernelIdeal.Gen Cert.Spec

variable (m : (ℓ : Loc nD τ sig) → Buf (Elt Ideal) ℓ)

/-- A grid point as one of the 64 blocks. -/
def t64 (t : Fin cfg0.N) : Fin 64 := ⟨t.val, lt_of_lt_of_eq t.isLt N_0⟩

/-- The printed index maps over the grid: the inputs' block index is the point, the outputs' is the point's half. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- Row r of block t of the candidate boxes is row 4096 t + r of the array. -/
theorem iblk0_apply (c : Dev nD) (t : Fin cfg0.N) (r : Fin 4096) (p : Fin 64) (k : Fin 4) :
    (iblk m c 0 t : Vec Ideal S4096x64x4 .f32) (ix3 r p k)
      = m ((c : Thread nD τ).loc main_arg0) (ix3 (grow (t64 t) r) p k) := by
  obtain ⟨e0, e1, e2, -⟩ := idx_facts t
  unfold iblk
  rw [View.read_apply]
  show V m c main_arg0 (((cfg0.win 0).blk t).view.emb (ix3 r p k)) = _
  rw [V_main_arg0]
  refine congrArg _ ?_
  funext a; apply Fin.ext
  match a with
  | ⟨0, _⟩ => show win0_0.index t (0 : Fin 3) * 4096 + 1 * r.val = t.val * 4096 + r.val; rw [e0]; omega
  | ⟨1, _⟩ => show win0_0.index t (1 : Fin 3) * 64 + 1 * p.val = p.val; rw [e1]; omega
  | ⟨2, _⟩ => show win0_0.index t (2 : Fin 3) * 4 + 1 * k.val = k.val; rw [e2]; omega

/-- Row r of block t of the target boxes is row 4096 t + r of the array. -/
theorem iblk1_apply (c : Dev nD) (t : Fin cfg0.N) (r : Fin 4096) (k : Fin 4) :
    (iblk m c 1 t : Vec Ideal S4096x4 .f32) (ix2 r k)
      = m ((c : Thread nD τ).loc main_arg1) (ix2 (grow (t64 t) r) k) := by
  obtain ⟨-, -, -, e0, e1, -⟩ := idx_facts t
  unfold iblk
  rw [View.read_apply]
  show V m c main_arg1 (((cfg0.win 1).blk t).view.emb (ix2 r k)) = _
  rw [V_main_arg1]
  refine congrArg _ ?_
  funext a; apply Fin.ext
  match a with
  | ⟨0, _⟩ => show win0_1.index t (0 : Fin 2) * 4096 + 1 * r.val = t.val * 4096 + r.val; rw [e0]; omega
  | ⟨1, _⟩ => show win0_1.index t (1 : Fin 2) * 4 + 1 * k.val = k.val; rw [e1]; omega

/-- So a block's row scores are the whole arrays' row scores. -/
theorem score_iblk (c : Dev nD) (t : Fin cfg0.N) (r : Fin 4096) :
    score (iblk m c 0 t : Vec Ideal S4096x64x4 .f32) (iblk m c 1 t : Vec Ideal S4096x4 .f32) r
      = score (m ((c : Thread nD τ).loc main_arg0)) (m ((c : Thread nD τ).loc main_arg1)) (grow (t64 t) r) := by
  unfold score
  refine congrArg rowMax (funext fun p => ?_)
  rw [show (fun k => (iblk m c 0 t : Vec Ideal S4096x64x4 .f32) (ix3 r p k))
        = fun k => m ((c : Thread nD τ).loc main_arg0) (ix3 (grow (t64 t) r) p k) from funext fun k => iblk0_apply m c t r p k,
    show (fun k => (iblk m c 1 t : Vec Ideal S4096x4 .f32) (ix2 r k))
        = fun k => m ((c : Thread nD τ).loc main_arg1) (ix2 (grow (t64 t) r) k) from funext fun k => iblk1_apply m c t r k]

/-- Block t's number of rows in bin l (zero past the grid). -/
def cnt (c : Dev nD) (t l : ℕ) : EReal :=
  if h : t < 64 then
    ∑ r : Fin 4096, hit (binOf (score (m ((c : Thread nD τ).loc main_arg0)) (m ((c : Thread nD τ).loc main_arg1)) (grow ⟨t, h⟩ r))) l
  else 0

/-- Block t's total of row scores (zero past the grid). -/
def tot (c : Dev nD) (t : ℕ) : EReal :=
  if h : t < 64 then
    ∑ r : Fin 4096, score (m ((c : Thread nD τ).loc main_arg0)) (m ((c : Thread nD τ).loc main_arg1)) (grow ⟨t, h⟩ r)
  else 0

/-- Every index of a 1×1×128 block is (0, 0, lane). -/
theorem idx_eq (i : S1x1x128.Idx) : i = ix3 (0 : Fin 1) (0 : Fin 1) (⟨(i 2).val, (i 2).isLt⟩ : Fin 128) := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => rfl

/-- The histogram buffer after block t's body: what it held plus the block's lane counts. -/
theorem step_hist (c : Dev nD) (t : Fin cfg0.N) (acc : Vec Ideal S1x1x128 .f32) :
    k0_pay8 (F := Ideal) (k0_pay4 (iblk m c 0 t) (iblk m c 1 t)) (k0_pay5 (iblk m c 0 t) (iblk m c 1 t)) k0_pay6 acc
      = fun i => acc i + cnt m c t.val (i 2).val := by
  funext i
  rw [idx_eq i]
  refine (Cert.KPay.pay8_apply (iblk m c 0 t) (iblk m c 1 t) acc ⟨(i 2).val, (i 2).isLt⟩).trans ?_
  refine congrArg _ ?_
  unfold cnt
  rw [dif_pos (lt_of_lt_of_eq t.isLt N_0)]
  exact Finset.sum_congr rfl fun r _ => by rw [score_iblk m c t r]; rfl

/-- The sum buffer after block t's body: what it held plus the block's score total in lane 0. -/
theorem step_sum (c : Dev nD) (t : Fin cfg0.N) (acc : Vec Ideal S1x1x128 .f32) :
    k0_pay9 (F := Ideal) (k0_pay4 (iblk m c 0 t) (iblk m c 1 t)) (k0_pay5 (iblk m c 0 t) (iblk m c 1 t)) k0_pay6 acc
      = fun i => acc i + (if (i 2).val = 0 then tot m c t.val else zeroF) := by
  funext i
  rw [idx_eq i]
  refine (Cert.KPay.pay9_apply (iblk m c 0 t) (iblk m c 1 t) acc ⟨(i 2).val, (i 2).isLt⟩).trans ?_
  refine congrArg _ ?_
  unfold tot
  rw [dif_pos (lt_of_lt_of_eq t.isLt N_0)]
  refine if_congr Iff.rfl ?_ rfl
  exact Finset.sum_congr rfl fun r _ => by rw [score_iblk m c t r]; rfl

/-- At a half's first block both buffers start from zeros. -/
theorem at_reset (c : Dev nD) (t : Fin cfg0.N) (h0 : t.val % 32 = 0) :
    outsAt0 m c t.val t.isLt
      = (fun i => zeroF + cnt m c t.val (i 2).val, fun i => zeroF + (if (i 2).val = 0 then tot m c t.val else zeroF)) := by
  rw [outsAt0_A m c t h0]
  rw [Cert.KCase.out_A_2 c (grid0.coords t) (ms0_0 t) (hs0_0 t) (ms0_1 t) (hs0_1 t) (ms0_2 t) (hs0_2 t) (ms0_3 t) (hs0_3 t)
      ((hcond0_0 t).mpr h0) (iblk m c 0 t) (iblk m c 1 t),
    Cert.KCase.out_A_3 c (grid0.coords t) (ms0_0 t) (hs0_0 t) (ms0_1 t) (hs0_1 t) (ms0_2 t) (hs0_2 t) (ms0_3 t) (hs0_3 t)
      ((hcond0_0 t).mpr h0) (iblk m c 0 t) (iblk m c 1 t)]
  rw [step_hist m c t, step_sum m c t]
  refine Prod.ext (funext fun i => ?_) (funext fun i => ?_)
  · show k0_pay1 (F := Ideal) i + _ = _
    rw [Cert.KPay.pay1_apply i]
  · show k0_pay2 (F := Ideal) i + _ = _
    rw [Cert.KPay.pay2_apply i]

/-- At every other block both buffers continue from what the block before left. -/
theorem at_carry (c : Dev nD) (t : Fin cfg0.N) (h0 : ¬t.val % 32 = 0) :
    outsAt0 m c t.val t.isLt
      = (fun i => (outsAt0 m c (t.val - 1) (Nat.lt_of_le_of_lt (Nat.sub_le _ _) t.isLt)).1 i + cnt m c t.val (i 2).val,
         fun i => (outsAt0 m c (t.val - 1) (Nat.lt_of_le_of_lt (Nat.sub_le _ _) t.isLt)).2 i
            + (if (i 2).val = 0 then tot m c t.val else zeroF)) := by
  rw [outsAt0_B m c t h0]
  rw [Cert.KCase.out_B_2 c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) _ _,
    Cert.KCase.out_B_3 c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) _ _]
  rw [step_hist m c t, step_sum m c t]

/-- What the histogram buffer holds after block n: zero plus the lane counts of the blocks of n's half up to n. -/
def histAt (c : Dev nD) (n : ℕ) : Vec Ideal S1x1x128 .f32 :=
  fun i => zeroF + ∑ j ∈ Finset.range (n % 32 + 1), cnt m c (32 * (n / 32) + j) (i 2).val

/-- What the sum buffer holds after block n: zero plus, in lane 0, the score totals of the blocks of n's half up to n. -/
def sumAt (c : Dev nD) (n : ℕ) : Vec Ideal S1x1x128 .f32 :=
  fun i => zeroF + ∑ j ∈ Finset.range (n % 32 + 1), (if (i 2).val = 0 then tot m c (32 * (n / 32) + j) else zeroF)

/-- The running buffers are those sums, by induction on the block. -/
theorem outsAt_eq (c : Dev nD) : ∀ (n : ℕ) (h : n < cfg0.N), outsAt0 m c n h = (histAt m c n, sumAt m c n)
  | 0, h => by
    refine (at_reset m c ⟨0, h⟩ rfl).trans ?_
    refine Prod.ext (funext fun i => ?_) (funext fun i => ?_)
    · show zeroF + cnt m c 0 (i 2).val = zeroF + ∑ j ∈ Finset.range (0 % 32 + 1), cnt m c (32 * (0 / 32) + j) (i 2).val
      rw [show (0 % 32 + 1) = 1 from rfl, Finset.sum_range_one]
    · show zeroF + (if (i 2).val = 0 then tot m c 0 else zeroF)
        = zeroF + ∑ j ∈ Finset.range (0 % 32 + 1), (if (i 2).val = 0 then tot m c (32 * (0 / 32) + j) else zeroF)
      rw [show (0 % 32 + 1) = 1 from rfl, Finset.sum_range_one]
  | n + 1, h => by
    by_cases h0 : (n + 1) % 32 = 0
    · refine (at_reset m c ⟨n + 1, h⟩ h0).trans ?_
      have e3 : 32 * ((n + 1) / 32) + 0 = n + 1 := by omega
      refine Prod.ext (funext fun i => ?_) (funext fun i => ?_)
      · show zeroF + cnt m c (n + 1) (i 2).val
          = zeroF + ∑ j ∈ Finset.range ((n + 1) % 32 + 1), cnt m c (32 * ((n + 1) / 32) + j) (i 2).val
        rw [h0, Finset.sum_range_one, e3]
      · show zeroF + (if (i 2).val = 0 then tot m c (n + 1) else zeroF)
          = zeroF + ∑ j ∈ Finset.range ((n + 1) % 32 + 1), (if (i 2).val = 0 then tot m c (32 * ((n + 1) / 32) + j) else zeroF)
        rw [h0, Finset.sum_range_one, e3]
    · refine (at_carry m c ⟨n + 1, h⟩ h0).trans ?_
      have ih := outsAt_eq c n (Nat.lt_of_succ_lt h)
      have e1 : (n + 1) % 32 = n % 32 + 1 := by omega
      have e2 : (n + 1) / 32 = n / 32 := by omega
      have e3 : 32 * (n / 32) + (n % 32 + 1) = n + 1 := by omega
      refine Prod.ext (funext fun i => ?_) (funext fun i => ?_)
      · show (outsAt0 m c n _).1 i + cnt m c (n + 1) (i 2).val
          = zeroF + ∑ j ∈ Finset.range ((n + 1) % 32 + 1), cnt m c (32 * ((n + 1) / 32) + j) (i 2).val
        rw [ih, e1, e2, Finset.sum_range_succ _ (n % 32 + 1), e3]
        show (zeroF + _) + _ = _
        rw [add_assoc]
      · show (outsAt0 m c n _).2 i + (if (i 2).val = 0 then tot m c (n + 1) else zeroF)
          = zeroF + ∑ j ∈ Finset.range ((n + 1) % 32 + 1), (if (i 2).val = 0 then tot m c (32 * ((n + 1) / 32) + j) else zeroF)
        rw [ih, e1, e2, Finset.sum_range_succ _ (n % 32 + 1), e3]
        show (zeroF + _) + _ = _
        rw [add_assoc]

/-- The histogram array the kernel leaves: row `half`, lane l holds zero plus the 32 blocks' counts of bin l. -/
def histRaw (c : Dev nD) : Buf (Elt Ideal) ((c : Thread nD τ).loc main_v0_0) :=
  fun i : S2x1x128.Idx => zeroF + ∑ j ∈ Finset.range 32, cnt m c (32 * (i 0).val + j) (i 2).val

/-- A half's last block writes the half's row of that array. -/
theorem flushed2_eq (c : Dev nD) (t : Fin cfg0.N) (hf : (cfg0.win 2).flush t = true) :
    (dats m 0 c).flushed 2 t = ((cfg0.win 2).blk t).view.read (Elt Ideal) (histRaw m c) := by
  have h31 : t.val % 32 = 31 := (flush0_2 t).mp hf
  show (cfg0.win 2).cut (grid0.coords t) ((dats m 0 c).after 2 t) = _
  rw [after0_2, outsAt_eq m c t.val t.isLt]
  obtain ⟨-, -, -, -, -, e20, e21, e22, e30, e31, e32⟩ := idx_facts t
  funext y
  show histAt m c t.val y = histRaw m c (((cfg0.win 2).blk t).view.emb y)
  have hA : ((((cfg0.win 2).blk t).view.emb y) 0).val = t.val / 32 := by
    show win0_2.index t (0 : Fin 3) * 1 + 1 * (y 0).val = _
    have hy : (y 0).val < 1 := (y 0).isLt
    rw [e20]; omega
  have hC : ((((cfg0.win 2).blk t).view.emb y) 2).val = (y 2).val := by
    show win0_2.index t (2 : Fin 3) * 128 + 1 * (y 2).val = _
    rw [e22]; omega
  show zeroF + ∑ j ∈ Finset.range (t.val % 32 + 1), cnt m c (32 * (t.val / 32) + j) (y 2).val
    = zeroF + ∑ j ∈ Finset.range 32, cnt m c (32 * ((((cfg0.win 2).blk t).view.emb y) 0).val + j) ((((cfg0.win 2).blk t).view.emb y) 2).val
  rw [hA, hC, h31]

/-- An index of the array is in point t's block iff each coordinate is in the block's range. -/
theorem mem_blk2 (t : Fin cfg0.N) (i : S2x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0_0).slice (win0_2.rect t)).set ↔ _
  rw [View.set_slice_whole, Rect.mem_set_unit]
  exact Iff.rfl

/-- The two write-backs cover the array, so it ends at that function. -/
theorem final2 (c : Dev nD) : (dats m 0 c).arrAt 2 cfg0.N = histRaw m c :=
  (dats m 0 c).arrAt_eq_of_cover 2 (histRaw m c) (flushed2_eq m c) fun i => by
    have hi0 : (i 0).val < 2 := (i 0).isLt
    have hi1 : (i 1).val < 1 := (i 1).isLt
    have hi2 : (i 2).val < 128 := (i 2).isLt
    let t : Fin cfg0.N := ⟨32 * (i 0).val + 31, by rw [show cfg0.N = 64 from N_0]; omega⟩
    obtain ⟨-, -, -, -, -, e20, e21, e22, e30, e31, e32⟩ := idx_facts t
    have ht : t.val = 32 * (i 0).val + 31 := rfl
    refine ⟨t, (flush0_2 t).mpr (by rw [ht]; omega), ?_⟩
    rw [mem_blk2]
    intro a
    match a with
    | ⟨0, _⟩ => show win0_2.index t (0 : Fin 3) * 1 ≤ (i 0).val ∧ (i 0).val < win0_2.index t (0 : Fin 3) * 1 + 1
                rw [e20, ht]; omega
    | ⟨1, _⟩ => show win0_2.index t (1 : Fin 3) * 1 ≤ (i 1).val ∧ (i 1).val < win0_2.index t (1 : Fin 3) * 1 + 1
                rw [e21]; omega
    | ⟨2, _⟩ => show win0_2.index t (2 : Fin 3) * 128 ≤ (i 2).val ∧ (i 2).val < win0_2.index t (2 : Fin 3) * 128 + 128
                rw [e22]; omega

/-- The sum array the kernel leaves: row `half` holds, in lane 0, zero plus the 32 blocks' score totals, and zeros elsewhere. -/
def sumRaw (c : Dev nD) : Buf (Elt Ideal) ((c : Thread nD τ).loc main_v0_1) :=
  fun i : S2x1x128.Idx => zeroF + ∑ j ∈ Finset.range 32, (if (i 2).val = 0 then tot m c (32 * (i 0).val + j) else zeroF)

/-- A half's last block writes the half's row of that array. -/
theorem flushed3_eq (c : Dev nD) (t : Fin cfg0.N) (hf : (cfg0.win 3).flush t = true) :
    (dats m 0 c).flushed 3 t = ((cfg0.win 3).blk t).view.read (Elt Ideal) (sumRaw m c) := by
  have h31 : t.val % 32 = 31 := (flush0_3 t).mp hf
  show (cfg0.win 3).cut (grid0.coords t) ((dats m 0 c).after 3 t) = _
  rw [after0_3, outsAt_eq m c t.val t.isLt]
  obtain ⟨-, -, -, -, -, e20, e21, e22, e30, e31, e32⟩ := idx_facts t
  funext y
  show sumAt m c t.val y = sumRaw m c (((cfg0.win 3).blk t).view.emb y)
  have hA : ((((cfg0.win 3).blk t).view.emb y) 0).val = t.val / 32 := by
    show win0_3.index t (0 : Fin 3) * 1 + 1 * (y 0).val = _
    have hy : (y 0).val < 1 := (y 0).isLt
    rw [e30]; omega
  have hC : ((((cfg0.win 3).blk t).view.emb y) 2).val = (y 2).val := by
    show win0_3.index t (2 : Fin 3) * 128 + 1 * (y 2).val = _
    rw [e32]; omega
  show zeroF + ∑ j ∈ Finset.range (t.val % 32 + 1), (if (y 2).val = 0 then tot m c (32 * (t.val / 32) + j) else zeroF)
    = zeroF + ∑ j ∈ Finset.range 32, (if ((((cfg0.win 3).blk t).view.emb y) 2).val = 0 then tot m c (32 * ((((cfg0.win 3).blk t).view.emb y) 0).val + j) else zeroF)
  rw [hA, hC, h31]

/-- An index of the array is in point t's block iff each coordinate is in the block's range. -/
theorem mem_blk3 (t : Fin cfg0.N) (i : S2x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0_1).slice (win0_3.rect t)).set ↔ _
  rw [View.set_slice_whole, Rect.mem_set_unit]
  exact Iff.rfl

/-- The two write-backs cover the array, so it ends at that function. -/
theorem final3 (c : Dev nD) : (dats m 0 c).arrAt 3 cfg0.N = sumRaw m c :=
  (dats m 0 c).arrAt_eq_of_cover 3 (sumRaw m c) (flushed3_eq m c) fun i => by
    have hi0 : (i 0).val < 2 := (i 0).isLt
    have hi1 : (i 1).val < 1 := (i 1).isLt
    have hi2 : (i 2).val < 128 := (i 2).isLt
    let t : Fin cfg0.N := ⟨32 * (i 0).val + 31, by rw [show cfg0.N = 64 from N_0]; omega⟩
    obtain ⟨-, -, -, -, -, e20, e21, e22, e30, e31, e32⟩ := idx_facts t
    have ht : t.val = 32 * (i 0).val + 31 := rfl
    refine ⟨t, (flush0_3 t).mpr (by rw [ht]; omega), ?_⟩
    rw [mem_blk3]
    intro a
    match a with
    | ⟨0, _⟩ => show win0_3.index t (0 : Fin 3) * 1 ≤ (i 0).val ∧ (i 0).val < win0_3.index t (0 : Fin 3) * 1 + 1
                rw [e30, ht]; omega
    | ⟨1, _⟩ => show win0_3.index t (1 : Fin 3) * 1 ≤ (i 1).val ∧ (i 1).val < win0_3.index t (1 : Fin 3) * 1 + 1
                rw [e31]; omega
    | ⟨2, _⟩ => show win0_3.index t (2 : Fin 3) * 128 ≤ (i 2).val ∧ (i 2).val < win0_3.index t (2 : Fin 3) * 128 + 128
                rw [e32]; omega

end Cert.KAccum

end
-- ==== Proof.HostTail.lean ====
/-
  The host operations after the kernel: the two halves' histograms added and converted to integers over the first 50 lanes,
  and every entry of the two halves' sum arrays added and divided by the number of rows.
-/
import proofs.«129085_j72954314490246_2_alg».proof.Proof.Spec
import proofs.«129085_j72954314490246_2_alg».proof.Proof.Gen.KernelIdeal.Launch
import Idealize.ShloMosaic.PureOps.Ideal.Laws
import Idealize.ShloMosaic.Lib.Pipeline.Value
import Idealize.ShloMosaic.Lib.StableHlo.Run
import Idealize.ShloMosaic.Lib.ValueLayout

noncomputable section

open Idealize.ShloMosaic Idealize.ShloMosaic.ValueIdx Idealize.ShloMosaic.TcCoe Idealize.SL.Sem

namespace Cert.KTail
open Cert.KernelIdeal Cert.KernelIdeal.Gen Cert.Spec
/-- Bin `j` of the 50 is lane `j` of the 128. -/
def lane (j : S50.Idx) : Fin 128 := ⟨(j 0).val, by have h : (j 0).val < 50 := (j 0).isLt; omega⟩
variable (W : Valuation τ sig (Elt Ideal)) (A2 A3 : S2x1x128.Idx → EReal)

namespace AuxE

/-- The two halves' histogram added along the first axis from zero, cut to its first 50 lanes and flattened, read at
    bin `a`: the cast reads row 0 at column `a`, the cut reads lane `a` of the 128, and the sum over the first axis there
    is zero plus the two halves' entries at (c, 0, a). -/
theorem hist_at (A : S2x1x128.Idx → EReal) (a : Fin 50) (ha : a.val < 128) :
    shapeCast S50
        (extractStridedSlice S1x50 ![0, 0]
          (Host.reduceAdd (F := Ideal) A (constant S_ FTy.f32 0x00000000#32) reducesTo_S2x1x128_S1x128_d0 h_S_)
          slices_S1x128_S1x50_0_0)
        shapeCasts_S1x50_S50 (ix1 a)
      = zeroF + ∑ c : Fin 2, A (ix3 c (0 : Fin 1) (⟨a.val, ha⟩ : Fin 128)) := by
  refine (shapeCast_1a_a_apply _ shapeCasts_S1x50_S50 a).trans ?_
  refine (slice2_axis1_apply 0 _ slices_S1x128_S1x50_0_0 (0 : Fin 1) a (⟨a.val, ha⟩ : Fin 128) (Nat.zero_add _).symm).trans ?_
  refine (Ideal.hostReduceAdd_single reducesTo_S2x1x128_S1x128_d0 (by decide) A _ _).trans ?_
  -- the initial value is the zero literal; the index over (0, a) with coordinate c on the dropped axis is (c, 0, a)
  refine congrArg₂ (· + ·) rfl (Finset.sum_congr rfl fun c _ => congrArg A ?_)
  funext d
  match d with
  | ⟨0, _⟩ => rfl
  | ⟨1, _⟩ => rfl
  | ⟨2, _⟩ => rfl

end AuxE

theorem tail_hist (h2 : W (Proc.devRef .tc main_v0_0) = A2) :
    StableHlo.after (hostOps1 (F := Ideal)) W (Proc.devRef .tc main_v4)
      = fun j : S50.Idx => Ideal.fptosi 32 (zeroF + ∑ c : Fin 2, A2 (ix3 c (0 : Fin 1) (lane j))) := by
  show _ = _
  -- the result buffer holds the five operations composed over the histogram array
  open Idealize.ShloMosaic.StableHlo in after_results
  rw [h2]
  funext j
  -- bin j is (a) for a literal coordinate a, whose lane is a itself; the conversion to integers acts entrywise
  obtain ⟨a, rfl⟩ : ∃ a : Fin 50, j = ix1 a := ⟨j 0, eq_ix1 j⟩
  exact congrArg (Ideal.fptosi 32) (AuxE.hist_at A2 a _)
theorem tail_mean (h3 : W (Proc.devRef .tc main_v0_1) = A3) :
    StableHlo.after (hostOps1 (F := Ideal)) W (Proc.devRef .tc main_v6)
      = fun _ : S_.Idx => Ideal.div (zeroF + ∑ i : S2x1x128.Idx, A3 i) rowsF := by
  show _ = _
  -- the result buffer holds the sum over every axis, from zero, divided entrywise by the row count
  open Idealize.ShloMosaic.StableHlo in after_results
  rw [h3]
  funext j
  show Ideal.div (Ideal.hostReduceAdd reducesTo_S2x1x128_S_d0_1_2 A3 zeroF j) rowsF = _
  -- the result has rank zero, so the sum runs over every index of the array
  rw [Ideal.hostReduceAdd_total reducesTo_S2x1x128_S_d0_1_2 (fun b => b.elim0) A3 zeroF j]
end Cert.KTail

end
-- ==== Proof.KernelRun.lean ====
/-
  The idealized kernel's run, read: its two results are the specification's histogram and mean of the argument arrays.

  The frame run leaves the two 2×1×128 arrays at the functions of the accumulation module and every other buffer at what
  the host operations after the kernel compute from them: the two halves' histogram rows added lane by lane and converted
  to integers, and all entries of the sum array added and divided by the number of rows.  Since the 2 × 32 blocks of 4096
  rows are all the rows, these are the number of rows in each bin and the mean row score.
-/
import proofs.«129085_j72954314490246_2_alg».proof.Proof.Spec
import proofs.«129085_j72954314490246_2_alg».proof.Proof.SpecFacts
import proofs.«129085_j72954314490246_2_alg».proof.Proof.Totals
import proofs.«129085_j72954314490246_2_alg».proof.Proof.Accumulate
import proofs.«129085_j72954314490246_2_alg».proof.Proof.HostTail
import proofs.«129085_j72954314490246_2_alg».proof.Proof.Gen.KernelIdeal.Frame
import Idealize.ShloMosaic.Lib.Pipeline.Value

noncomputable section

open Idealize.ShloMosaic Idealize.ShloMosaic.ValueIdx Idealize.ShloMosaic.TcCoe Idealize.SL.Sem
open Idealize.ShloMosaic.Pipeline (Dat)

namespace Cert.KRun

open Cert.KernelIdeal Cert.KernelIdeal.Gen Cert.Spec Cert.KAccum

variable (m : (ℓ : Loc nD τ sig) → Buf (Elt Ideal) ℓ) (ρ : Dev nD → PrngReg)

/-- The buffers as the kernel region leaves them: the two result arrays at the accumulated sums, the rest as at entry. -/
abbrev exitVal (c : Dev nD) : Valuation τ sig (Elt Ideal) :=
  Pipeline.withArrays (cfgs 0).spec c (V0 m c) fun w => (dats m 0 c).arrAt w (cfgs 0).N

theorem exit_hist (c : Dev nD) : exitVal m c (Proc.devRef .tc main_v0_0) = histRaw m c :=
  (Pipeline.withArrays_arr spec0 launch0.win.arr_inj c _ _ 2).trans (final2 m c)

theorem exit_sum (c : Dev nD) : exitVal m c (Proc.devRef .tc main_v0_1) = sumRaw m c :=
  (Pipeline.withArrays_arr spec0 launch0.win.arr_inj c _ _ 3).trans (final3 m c)

/-- The first result: the number of rows in each bin. -/
theorem result_hist (c : Dev nD) :
    Pipeline.afterTail₀ cfgs (dats m) 0 (V0 m) [hostOps1] c main_v4
      = hist (m ((c : Thread nD τ).loc main_arg0)) (m ((c : Thread nD τ).loc main_arg1)) := by
  unfold Pipeline.afterTail₀
  show StableHlo.after (hostOps1 (F := Ideal)) (exitVal m c) (Proc.devRef .tc main_v4) = _
  rw [Cert.KTail.tail_hist (exitVal m c) (histRaw m c) (exit_hist m c)]
  funext j
  show Ideal.fptosi 32 (zeroF + ∑ c' : Fin 2, (zeroF + ∑ k ∈ Finset.range 32, cnt m c (32 * c'.val + k) (j 0).val)) = _
  exact hist_total (cnt m c) (fun n => binOf (score (m ((c : Thread nD τ).loc main_arg0)) (m ((c : Thread nD τ).loc main_arg1)) n))
    (j 0).val (fun t => by unfold cnt; rw [dif_pos t.isLt])

/-- The second result: the mean row score. -/
theorem result_mean (c : Dev nD) :
    Pipeline.afterTail₀ cfgs (dats m) 0 (V0 m) [hostOps1] c main_v6
      = mean (m ((c : Thread nD τ).loc main_arg0)) (m ((c : Thread nD τ).loc main_arg1)) := by
  unfold Pipeline.afterTail₀
  show StableHlo.after (hostOps1 (F := Ideal)) (exitVal m c) (Proc.devRef .tc main_v6) = _
  rw [Cert.KTail.tail_mean (exitVal m c) (sumRaw m c) (exit_sum m c)]
  funext i
  unfold mean
  refine congrArg (fun s => Ideal.div (zeroF + s) rowsF) ?_
  exact mean_total (tot m c) (fun n => score (m ((c : Thread nD τ).loc main_arg0)) (m ((c : Thread nD τ).loc main_arg1)) n)
    (fun t => by unfold tot; rw [dif_pos t.isLt])

/-- The run: every weakly fair execution ends with the two results at the specification's values of the arguments,
    and the arguments unchanged. -/
theorem run : θ_run defs (onTc (τ := τ) (main (F := Ideal))) ⟨m, fun _ => 0, ρ⟩ fun r => ∀ c : Dev nD,
      r.2.mem ((c : Thread nD τ).loc main_v4) = hist (m ((c : Thread nD τ).loc main_arg0)) (m ((c : Thread nD τ).loc main_arg1))
      ∧ r.2.mem ((c : Thread nD τ).loc main_v6) = mean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 rfl (by decide))).trans (result_hist m c),
     ((h c).2 main_v6 (Pipeline.mem_restRefs_of main_v6 rfl (by decide))).trans (result_mean m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KRun

end
-- ==== Proof.lean ====
/-
  The certificate: an aligned overlap-ratio histogram, kernel against reference, over the extended reals.

  For 262144 rows, each with 64 candidate boxes and one target box, both programs compute every candidate's overlap
  ratio with the row's target (overlap / max (area + area - overlap, eps)), take the row's maximum, bin it by
  min (trunc (floor (score / width)), 49), and return the number of rows in each of the 50 bins together with the mean of
  the row scores.  The reference counts by scattering ones at the (clamped) bins and sums all scores at once.  The kernel
  walks 2 halves × 32 blocks of 4096 rows, adds per block a 0/1 lane comparison summed over the block's rows into a
  running 128-lane histogram and the block's score total into lane 0 of a running sum, and the host adds the two halves,
  keeps the first 50 lanes as integers, and divides the total by the number of rows.

  The two agree because (1) each row's score is the same term on both sides, (2) a score is at least zero, so its bin is
  in 0..49: the reference's clamp at zero changes nothing and exactly one of the first 50 lanes matches, (3) a sum of 0/1
  contributions over all rows is the count of the ones, which converts exactly to a 32-bit word, and (4) sums on the
  extended reals may be regrouped by halves, blocks and rows.  No step needs the inputs to be finite.

  The frames of the two kernel programs and the runs' termination come from the generated frame modules; the reference's
  run is its generated run.  The ideal pass rewrote nothing, so the idealization conjunct is trivial.
-/
import proofs.«129085_j72954314490246_2_alg».proof.Defs
import proofs.«129085_j72954314490246_2_alg».proof.Proof.Gen.Kernel
import proofs.«129085_j72954314490246_2_alg».proof.Proof.Gen.Kernel.Skeleton
import proofs.«129085_j72954314490246_2_alg».proof.Proof.Gen.Kernel.Launch
import proofs.«129085_j72954314490246_2_alg».proof.Proof.Gen.Kernel.Points
import proofs.«129085_j72954314490246_2_alg».proof.Proof.Gen.Kernel.Frame
import proofs.«129085_j72954314490246_2_alg».proof.Proof.Gen.KernelIdeal
import proofs.«129085_j72954314490246_2_alg».proof.Proof.Gen.KernelIdeal.Skeleton
import proofs.«129085_j72954314490246_2_alg».proof.Proof.Gen.KernelIdeal.Launch
import proofs.«129085_j72954314490246_2_alg».proof.Proof.Gen.KernelIdeal.Points
import proofs.«129085_j72954314490246_2_alg».proof.Proof.Gen.KernelIdeal.Frame
import proofs.«129085_j72954314490246_2_alg».proof.Proof.Gen.ReferenceIdeal
import proofs.«129085_j72954314490246_2_alg».proof.Proof.Gen.Pre_finite_inputs
import proofs.«129085_j72954314490246_2_alg».proof.Proof.Gen.ReferenceIdeal.Run
import proofs.«129085_j72954314490246_2_alg».proof.Proof.Gen.ReferenceIdeal.Read
import proofs.«129085_j72954314490246_2_alg».proof.Proof.Spec
import proofs.«129085_j72954314490246_2_alg».proof.Proof.RefStages
import proofs.«129085_j72954314490246_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

theorem preserves : Cert.preserves_Kernel_KernelIdeal := trivial

/-- Both runs end with the histogram and the mean of the specification, of arguments that agree. -/
theorem algebraic : Cert.algebraic_KernelIdeal_ReferenceIdeal := by
  intro m ρ m' ρ' _ hagree
  refine ⟨fun c => Cert.Spec.hist (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => Cert.Spec.mean (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KRun.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1, (h c).2.2.2⟩
  · rw [Cert.ReferenceIdeal.Read.val_main_v60_eq, Cert.RefStages.ref_hist, (hagree c).1, (hagree c).2]
  · rw [Cert.ReferenceIdeal.Read.val_main_v62_eq, Cert.RefStages.ref_mean, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
